-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S100000 : Shape := ⟨1, ![100000]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : FVec F S64x64 .f32) (main_arg2 : FVec F S64x64 .f32) (main_arg3 : FVec F S64 .f32) (main_arg4 : FVec F S64x64 .f32) (main_arg5 : FVec F S64x64 .f32) (main_arg6 : FVec F S64 .f32) (main_arg7 : IVec S100000 32) (main_arg8 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S100000x64 : Shape := ⟨2, ![100000, 64]⟩
abbrev S64x64 : Shape := ⟨2, ![64, 64]⟩
abbrev S64 : Shape := ⟨1, ![64]⟩
abbrev S100000 : Shape := ⟨1, ![100000]⟩
abbrev S2x1600000 : Shape := ⟨2, ![2, 1600000]⟩
abbrev S_ : Shape := ⟨0, ![]⟩
abbrev S100000x1 : Shape := ⟨2, ![100000, 1]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S1x64 : Shape := ⟨2, ![1, 64]⟩
abbrev S4000x64 : Shape := ⟨2, ![4000, 64]⟩
abbrev S4000x1 : Shape := ⟨2, ![4000, 1]⟩
abbrev S12500x128x64 : Shape := ⟨3, ![12500, 128, 64]⟩
abbrev S12500x128 : Shape := ⟨2, ![12500, 128]⟩
abbrev S128x128x64 : Shape := ⟨3, ![128, 128, 64]⟩
abbrev S128x128 : Shape := ⟨2, ![128, 128]⟩

abbrev nBuf : Space → Nat
  | .hbm => 88
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S2x1600000, .i32⟩
  | .hbm, ⟨9, _⟩ => ⟨S_, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S100000, .i32⟩
  | .hbm, ⟨16, _⟩ => ⟨S100000x1, .i32⟩
  | .hbm, ⟨17, _⟩ => ⟨S100000x64, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S64x64, .f32⟩
  | .hbm, ⟨46, _⟩ => ⟨S64x64, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S64x64, .f32⟩
  | .hbm, ⟨63, _⟩ => ⟨S64x64, .f32⟩
  | .hbm, ⟨64, _⟩ => ⟨S1x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S12500x128x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S12500x128x64, .f32⟩
  | .hbm, ⟨86, _⟩ => ⟨S12500x128, .f32⟩
  | .hbm, ⟨87, _⟩ => ⟨S1600000, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x1, .f32⟩
  | .local _ .vmem, ⟨16, _⟩ => ⟨S4000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | .local _ .vmem, ⟨22, _⟩ => ⟨S128x128x64, .f32⟩
  | .local _ .vmem, ⟨23, _⟩ => ⟨S128x128x64, .f32⟩
  | .local _ .vmem, ⟨24, _⟩ => ⟨S128x128x64, .f32⟩
  | .local _ .vmem, ⟨25, _⟩ => ⟨S128x128x64, .f32⟩
  | .local _ .vmem, ⟨26, _⟩ => ⟨S128x128, .f32⟩
  | .local _ .vmem, ⟨27, _⟩ => ⟨S128x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_c_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![98], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x128x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x128x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  shapeCasts_S1600000x64_S12500x128x64 : S1600000x64.ShapeCasts S12500x128x64
  inb_S128x128x64_S128x128x64_0_0_0 : ∀ a, (![0, 0, 0] : Fin 3 → Nat) a + S128x128x64.size a ≤ S128x128x64.size a
  h_S128x128x64 : 0 < S128x128x64.numel
  shapeCasts_S128x128x64_S128x128x64 : S128x128x64.ShapeCasts S128x128x64
  reduces_S128x128x64_S128x128 : S128x128x64.Reduces [2] S128x128
  inb_S128x128_S128x128_0_0 : ∀ a, (![0, 0] : Fin 2 → Nat) a + S128x128.size a ≤ S128x128.size a
  h_S128x128 : 0 < S128x128.numel
  shapeCasts_S12500x128_S1600000 : S12500x128.ShapeCasts S1600000
  gather_S100000x64_S100000x1_S100000x64_1_0_n_n_0_1_164_wf : GatherDims.WF S100000x64 S100000x1 S100000x64 [1] [0] [] [0] [] 1 ![1, 64]
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S128x128x64.size a < S12500x128x64.size a
  hwx2_0 : ∀ i : grid2.Coords, EltTy.bits .f32 = 32 ∨ (Rect.unit (s := S12500x128x64) (fun a => cc2_transform_0 i a * S128x128x64.size a) (fun a => (Pipeline.Clip.of (cc2_transform_0 i a) (S128x128x64.size a) (S12500x128x64.size a)).extent (S128x128x64.size a)) fun a => Pipeline.Clip.inb (Pipeline.Clip.ok_of (hstart2_0 i a))).WholeWords (EltTy.packing .f32)
  hwxs2_0 : ∀ i : grid2.Coords, EltTy.bits .f32 = 32 ∨ (Rect.unit (s := S128x128x64) (fun _ => 0) (fun a => (Pipeline.Clip.of (cc2_transform_0 i a) (S128x128x64.size a) (S12500x128x64.size a)).extent (S128x128x64.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S128x128x64.size a < S12500x128x64.size a
  hwx2_1 : ∀ i : grid2.Coords, EltTy.bits .f32 = 32 ∨ (Rect.unit (s := S12500x128x64) (fun a => cc2_transform_1 i a * S128x128x64.size a) (fun a => (Pipeline.Clip.of (cc2_transform_1 i a) (S128x128x64.size a) (S12500x128x64.size a)).extent (S128x128x64.size a)) fun a => Pipeline.Clip.inb (Pipeline.Clip.ok_of (hstart2_1 i a))).WholeWords (EltTy.packing .f32)
  hwxs2_1 : ∀ i : grid2.Coords, EltTy.bits .f32 = 32 ∨ (Rect.unit (s := S128x128x64) (fun _ => 0) (fun a => (Pipeline.Clip.of (cc2_transform_1 i a) (S128x128x64.size a) (S12500x128x64.size a)).extent (S128x128x64.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S128x128.size a < S12500x128.size a
  hwx2_2 : ∀ i : grid2.Coords, EltTy.bits .f32 = 32 ∨ (Rect.unit (s := S12500x128) (fun a => cc2_transform_2 i a * S128x128.size a) (fun a => (Pipeline.Clip.of (cc2_transform_2 i a) (S128x128.size a) (S12500x128.size a)).extent (S128x128.size a)) fun a => Pipeline.Clip.inb (Pipeline.Clip.ok_of (hstart2_2 i a))).WholeWords (EltTy.packing .f32)
  hwxs2_2 : ∀ i : grid2.Coords, EltTy.bits .f32 = 32 ∨ (Rect.unit (s := S128x128) (fun _ => 0) (fun a => (Pipeline.Clip.of (cc2_transform_2 i a) (S128x128.size a) (S12500x128.size a)).extent (S128x128.size a)) fun a => (Nat.zero_add _).trans_le (Pipeline.Clip.extent_le (Pipeline.Clip.ok_of (hstart2_2 i a)))).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v27) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpecClip (Memref.whole main_v53) S128x128x64.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v61) S128x128x64.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v62) S128x128.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S100000 : Shape := ⟨1, ![100000]⟩
abbrev S2x1600000 : Shape := ⟨2, ![2, 1600000]⟩
abbrev S_ : Shape := ⟨0, ![]⟩
abbrev S100000x1 : Shape := ⟨2, ![100000, 1]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S2x1600000, .i32⟩
  | .hbm, ⟨9, _⟩ => ⟨S_, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S100000, .i32⟩
  | .hbm, ⟨16, _⟩ => ⟨S100000x1, .i32⟩
  | .hbm, ⟨17, _⟩ => ⟨S100000x64, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S64x64, .f32⟩
  | .hbm, ⟨48, _⟩ => ⟨S100000x64, .f32⟩
  | .hbm, ⟨49, _⟩ => ⟨S64x64, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S1x1600000, .i32⟩
  | .hbm, ⟨59, _⟩ => ⟨S1600000, .i32⟩
  | .hbm, ⟨60, _⟩ => ⟨S1x1600000, .i32⟩
  | .hbm, ⟨61, _⟩ => ⟨S1600000, .i32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S_, .f32⟩
  | .hbm, ⟨76, _⟩ => ⟨S1600000, .f32⟩
  | .hbm, ⟨77, _⟩ => ⟨S_, .f32⟩
  | .hbm, ⟨78, _⟩ => ⟨S100000, .f32⟩
  | .hbm, ⟨79, _⟩ => ⟨S1600000x1, .i32⟩
  | .hbm, ⟨80, _⟩ => ⟨S100000, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S100000x1, .f32⟩
  | .hbm, ⟨85, _⟩ => ⟨S100000x64, .f32⟩
  | .hbm, ⟨86, _⟩ => ⟨S100000x64, .f32⟩
  | .hbm, ⟨87, _⟩ => ⟨S64x64, .f32⟩
  | .hbm, ⟨88, _⟩ => ⟨S100000x64, .f32⟩
  | .hbm, ⟨89, _⟩ => ⟨S64x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S1x1600000, .i32⟩
  | .hbm, ⟨96, _⟩ => ⟨S1600000, .i32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1x1600000, .i32⟩
  | .hbm, ⟨107, _⟩ => ⟨S1600000, .i32⟩
  | .hbm, ⟨108, _⟩ => ⟨S_, .i32⟩
  | .hbm, ⟨109, _⟩ => ⟨S1600000, .i32⟩
  | .hbm, ⟨110, _⟩ => ⟨S1600000, .i1⟩
  | .hbm, ⟨111, _⟩ => ⟨S_, .i32⟩
  | .hbm, ⟨112, _⟩ => ⟨S1600000, .i32⟩
  | .hbm, ⟨113, _⟩ => ⟨S1600000, .i32⟩
  | .hbm, ⟨114, _⟩ => ⟨S1600000, .i32⟩
  | .hbm, ⟨115, _⟩ => ⟨S1600000x1, .i32⟩
  | .hbm, ⟨116, _⟩ => ⟨S1600000x64, .f32⟩
  | .hbm, ⟨117, _⟩ => ⟨S1600000x64, .f32⟩
  | .hbm, ⟨118, _⟩ => ⟨S_, .f32⟩
  | .hbm, ⟨119, _⟩ => ⟨S1600000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call0_cst : Ref sig .tc := ⟨.hbm, 55, rfl⟩
abbrev main_call0_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_12 : Ref sig .tc := ⟨.hbm, 97, rfl⟩
abbrev main_v72 : Ref sig .tc := ⟨.hbm, 98, rfl⟩
abbrev main_v73 : Ref sig .tc := ⟨.hbm, 99, rfl⟩
abbrev main_c_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_14 : Ref sig .tc := ⟨.hbm, 108, rfl⟩
abbrev main_v81 : Ref sig .tc := ⟨.hbm, 109, rfl⟩
abbrev main_v82 : Ref sig .tc := ⟨.hbm, 110, rfl⟩
abbrev main_c_15 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_16 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S1600000x64_S1600000_d1 : S1600000x64.ReducesTo [1] S1600000
  h_S_ : 0 < S_.numel
  gather_S100000x64_S100000x1_S100000x64_1_0_n_n_0_1_164_wf : GatherDims.WF S100000x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.BitsLayers.lean ====
/-
  The two dense layers of the graph network as pipeline regions: each grid point stages 4000 node rows of the
  aggregate, of the node features and of the degree column beside the two 64×64 weight matrices and the bias row,
  and stores (aggregate / degree) · Wl + features · Wr + bias (the first layer clamped below at zero) into the
  4000 rows of the result. Here: what each point's body leaves in its output block, as a function of the input
  blocks, and the body's run at a generic point.
-/
import proofs.«101352_j60773787238404_2_alg».proof.Proof.Gen.Kernel.Launch
import proofs.«101352_j60773787238404_2_alg».proof.Proof.Gen.Kernel.Skeleton
import proofs.«101352_j60773787238404_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first (rectified) layer's region (pipeline 0), at the contents `V` its buffers hold when it is entered -/

/-- Window `w`'s block at grid point `t`: the rows of its array that the point stages. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's staging buffer holds its block at every point, whether the point fetched it or the block
   index stood still since the fetch (the two weight matrices and the bias row are fetched once). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev rA0 : Rect S4000x64 := Rect.unit (s := S4000x64) ![0, 0] S4000x64.size inb_S4000x64_S4000x64_0_0
abbrev rD0 : Rect S4000x1 := Rect.unit (s := S4000x1) ![0, 0] S4000x1.size inb_S4000x1_S4000x1_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- What the body leaves in the output block: its one whole-block store of the layer's value computed from the six
    input blocks (aggregate rows, node rows, degree column, the two weight matrices, the bias row). -/
def out0_6 (x0 : Vec F S4000x64 .f32) (x1 : Vec F S4000x64 .f32) (x2 : Vec F S4000x1 .f32) (x3 : Vec F S64x64 .f32) (x4 : Vec F S64x64 .f32) (x5 : Vec F S1x64 .f32) : Vec F S4000x64 .f32 :=
  View.canon [⟨rA0, k0_pay1 (View.ld x2 rD0) (View.ld x0 rA0) (View.ld x1 rA0) (View.ld x3 rW0) (View.ld x4 rW0) (View.ld x5 rB0)⟩]

/-- The one store is the whole block. -/
theorem cover0_6 (p0 : Vec F S4000x64 .f32) (y : S4000x64.Idx) :
    ∃ pc ∈ ([⟨rA0, p0⟩] : List (View.Piece (Elt F) S4000x64 .f32)), y ∈ pc.1.set :=
  View.cover_of_tiled [⟨rA0, p0⟩] S4000x64.size (by rfl) y

set_option maxHeartbeats 4000000 in
/-- The body on whole staging buffers: the six inputs are read and left as they were, the output block ends at
    `out0_6` of them. -/
theorem sound_kernel0 (c : Dev nD) (E : Set ℕ) (i : grid0.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4000x64 .f32) (harg7 : arg7.IsWhole)
    (x0 : Vec F S4000x64 .f32) (x1 : Vec F S4000x64 .f32) (x2 : Vec F S4000x1 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The region's proof data on core `c`: the arrays as found at entry; after the body every input buffer at its
    block and the output buffer at the layer's value of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is handed at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

/-! # The second layer's region (pipeline 1), at the contents `V` its buffers hold when it is entered -/

/-- Window `w`'s block at grid point `t`: the rows of its array that the point stages. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input window's staging buffer holds its block at every point, whether the point fetched it or the block
   index stood still since the fetch (the two weight matrices and the bias row are fetched once). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev rA1 : Rect S4000x64 := Rect.unit (s := S4000x64) ![0, 0] S4000x64.size inb_S4000x64_S4000x64_0_0
abbrev rD1 : Rect S4000x1 := Rect.unit (s := S4000x1) ![0, 0] S4000x1.size inb_S4000x1_S4000x1_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output block: its one whole-block store of the layer's value computed from the six
    input blocks (aggregate rows, node rows, degree column, the two weight matrices, the bias row). -/
def out1_6 (x0 : Vec F S4000x64 .f32) (x1 : Vec F S4000x64 .f32) (x2 : Vec F S4000x1 .f32) (x3 : Vec F S64x64 .f32) (x4 : Vec F S64x64 .f32) (x5 : Vec F S1x64 .f32) : Vec F S4000x64 .f32 :=
  View.canon [⟨rA1, k1_pay1 (View.ld x2 rD1) (View.ld x0 rA1) (View.ld x1 rA1) (View.ld x3 rW1) (View.ld x4 rW1) (View.ld x5 rB1)⟩]

/-- The one store is the whole block. -/
theorem cover1_6 (p0 : Vec F S4000x64 .f32) (y : S4000x64.Idx) :
    ∃ pc ∈ ([⟨rA1, p0⟩] : List (View.Piece (Elt F) S4000x64 .f32)), y ∈ pc.1.set :=
  View.cover_of_tiled [⟨rA1, p0⟩] S4000x64.size (by rfl) y

set_option maxHeartbeats 4000000 in
/-- The body on whole staging buffers: the six inputs are read and left as they were, the output block ends at
    `out1_6` of them. -/
theorem sound_kernel1 (c : Dev nD) (E : Set ℕ) (i : grid1.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4000x64 .f32) (harg7 : arg7.IsWhole)
    (x0 : Vec F S4000x64 .f32) (x1 : Vec F S4000x64 .f32) (x2 : Vec F S4000x1 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__combine_kernel i arg1 harg1 arg2 harg2 arg3 harg3 arg4 harg4 arg5 harg5 arg6 harg6 arg7 harg7) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The region's proof data on core `c`: the arrays as found at entry; after the body every input buffer at its
    block and the output buffer at the layer's value of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is handed at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Regions

end Cert.Kernel.Layers

end
-- ==== Proof.BitsEdgeBody.lean ====
/-
  The per-edge inner product as a pipeline region: each grid point stages 128 slabs of 128 edges, the two endpoint
  feature rows of every edge (64 wide), multiplies them entry by entry and sums over the 64 entries, storing one
  number per edge. Here: the body's run on whole staging buffers, whatever they hold — the last point's blocks
  reach past the arrays' 12500 slabs, and what the buffers hold there is not determined.
-/
import proofs.«101352_j60773787238404_2_alg».proof.Proof.Gen.Kernel.Launch
import proofs.«101352_j60773787238404_2_alg».proof.Proof.Gen.Kernel.Skeleton
import proofs.«101352_j60773787238404_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.EdgeBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev rI : Rect S128x128x64 := Rect.unit (s := S128x128x64) ![0, 0, 0] S128x128x64.size inb_S128x128x64_S128x128x64_0_0_0
abbrev rO : Rect S128x128 := Rect.unit (s := S128x128) ![0, 0] S128x128.size inb_S128x128_S128x128_0_0

/-- What the body leaves in the output block: its one whole-block store of the products' sums. -/
def out2_2 (x0 : Vec F S128x128x64 .f32) (x1 : Vec F S128x128x64 .f32) : Vec F S128x128 .f32 :=
  View.canon [⟨rO, k2_pay1 (View.ld x0 rI) (View.ld x1 rI)⟩]

theorem cover2_2 (p0 : Vec F S128x128 .f32) (y : S128x128.Idx) :
    ∃ pc ∈ ([⟨rO, p0⟩] : List (View.Piece (Elt F) S128x128 .f32)), y ∈ pc.1.set :=
  View.cover_of_tiled [⟨rO, p0⟩] S128x128.size (by rfl) y

/-- The whole-block store over whole-block loads is the payload of the two buffers' contents. -/
theorem out2_2_eq (x0 : Vec F S128x128x64 .f32) (x1 : Vec F S128x128x64 .f32) : out2_2 x0 x1 = k2_pay1 x0 x1 := by
  have hz2 : (![0, 0] : Fin 2 → Nat) = fun _ => 0 := funext fun a => by fin_cases a <;> rfl
  have hz3 : (![0, 0, 0] : Fin 3 → Nat) = fun _ => 0 := funext fun a => by fin_cases a <;> rfl
  unfold out2_2
  rw [View.canon_unit_zero hz2]
  simp only [View.ld_unit_zero (S := S128x128x64) hz3]

set_option maxHeartbeats 4000000 in
/-- The body on whole staging buffers: the two inputs are read and left as they were, the output block ends at the
    sums of their entrywise products. -/
theorem sound_kernel2 (c : Dev nD) (E : Set ℕ) (i : grid2.Coords) (arg1 : Memref sig .tc .vmem S128x128x64 .f32) (harg1 : arg1.IsWhole) (arg2 : Memref sig .tc .vmem S128x128x64 .f32) (harg2 : arg2.IsWhole) (arg3 : Memref sig .tc .vmem S128x128 .f32) (harg3 : arg3.IsWhole)
    (x0 : Vec F S128x128x64 .f32) (x1 : Vec F S128x128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k2_pay1 x0 x1)) -∗ K ⟨⟩))
      ⊢ wp frame (wpE (defs₀ (F := F)) Variants.none c none) E (cc2__edge_dot_kernel i arg1 harg1 arg2 harg2 arg3 harg3) K := by
  rw [← out2_2_eq]
  simp only [cc2__edge_dot_kernel_eq_skeleton]; unfold cc2__edge_dot_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

end Cert.Kernel.EdgeBody

end
-- ==== Proof.BitsFrame.lean ====
/-
  The word-level program's frame: every weakly fair run of the graph network from any memory terminates without a
  fault and leaves the nine argument arrays as launched.

  The program is four stretches of host operations around three pipeline regions. The two dense layers' regions
  are described exactly: what each grid point leaves in its output block is a function of its input blocks, so the
  arrays after each region are named and the next stretch runs over them. The per-edge inner product's region is
  not: its last grid point's blocks reach past the arrays' 12500 slabs, the staging buffers hold undetermined
  words there, and the lane sum of undetermined words is undetermined. Its proof data therefore constrains
  nothing about what the body leaves: the region then ends with its three arrays at SOME contents, the last
  stretch (one reshape of the region's result) runs over whatever those are, and no argument is among them.
-/
import proofs.«101352_j60773787238404_2_alg».proof.Proof.BitsLayers
import proofs.«101352_j60773787238404_2_alg».proof.Proof.BitsEdgeBody
import proofs.«101352_j60773787238404_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents recurses once per coordinate of the long axes
set_option maxRecDepth 16384

noncomputable section

namespace Cert.Kernel.BitsFrame

open Cert.Kernel Cert.Kernel.Gen Cert.Kernel.Layers Cert.Kernel.EdgeBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The per-edge inner product's region, described relationally -/

section EdgeRegion
variable (V : (c : Dev nD) → (b : Ref sig .tc) → Buf (Elt F) ((c : Thread nD τ).loc b))

/-- The region's proof data on core `c`: the arrays as found at entry; of what the body leaves in a staging buffer,
    nothing (any contents may follow any contents); nothing owed, full shares. -/
def rdat2 (c : Dev nD) : RDat τ (Elt F) Unit ℕ (UR sig nD τ) ℕ cfg2 c where
  A w := V c (Pipeline.arrRef spec2 w)
  after _ _ _ _ := True
  Φ _ := Pipeline.ΦA spec2 c
  q _ := fullShare
  owed _ := 0

/-- The body at any point, on staging buffers holding anything: it runs, and hands the three buffers back. -/
theorem sound_body2 (c : Dev nD) (t : Fin cfg2.N)
    (Y : (w : Fin cfg2.W) → (cfg2.win w).block.Idx → Elt F (cfg2.win w).elt) :
    iprop((rdat2 V c).Φ t.castSucc ∗ (rdat2 V c).owesAt () t.castSucc
        ∗ owns (c : Thread nD τ) (st2_0 t) fullShare (Y 0)
        ∗ owns (c : Thread nD τ) (st2_1 t) fullShare (Y 1)
        ∗ owns (c : Thread nD τ) (st2_2 t) fullShare (Y 2))
      ⊢ wp frame (wpE (defs₀ (F := F)) Variants.none c none) Set.univ (bodyAt2 t) (fun _ =>
          iprop((rdat2 V c).Φ t.succ ∗ (rdat2 V c).owesAt () t.succ
            ∗ (∃ X, ⌜(rdat2 V c).after 0 t (Y 0) X⌝ ∗ owns (c : Thread nD τ) (st2_0 t) fullShare X)
            ∗ (∃ X, ⌜(rdat2 V c).after 1 t (Y 1) X⌝ ∗ owns (c : Thread nD τ) (st2_1 t) fullShare X)
            ∗ (∃ X, ⌜(rdat2 V c).after 2 t (Y 2) X⌝ ∗ owns (c : Thread nD τ) (st2_2 t) fullShare X))) := by
  unfold bodyAt2
  rw [show (rdat2 V c).Φ t.succ = (rdat2 V c).Φ t.castSucc from rfl,
    show (rdat2 V c).owesAt () t.succ = (rdat2 V c).owesAt () t.castSucc from rfl]
  iintro ⟨HΦ, Ho, H0, H1, H2⟩
  iapply (sound_kernel2 c Set.univ (grid2.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists _; isplitr
    swap; · iexact H0
    ipureintro; trivial
  isplitl [H1]
  · iexists _; isplitr
    swap; · iexact H1
    ipureintro; trivial
  iexists _; isplitr
  swap; · iexact H2
  ipureintro; trivial

/-- The relational body obligation, at every point and whatever the buffers hold. -/
theorem body_obligation2 (c : Dev nD) : (rdat2 (F := F) V c).BodyObligation (defs₀ (F := F)) Variants.none () Set.univ := fun t Y _ => by
  rw [bigSep_W2, bigSep_W2]
  exact sound_body2 V c t Y

end EdgeRegion

/-! # The run: the buffers' contents at each boundary between a stretch and a region, a fold from the launch memory -/

/-- Core `c`'s buffers at launch, -/
abbrev W0 : Dev nD → Valuation τ sig (Elt F) := fun c b => m (c, b)
/-- after the first stretch (the first layer's region is entered from these), -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- after the first layer's region: its arrays at what the write-backs leave, every other buffer as entered, -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- after the second stretch (the second layer's region is entered from these), -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- after the second layer's region, -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- after the third stretch (the inner product's region is entered from these). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- What the inner product's region may leave in its three arrays on core `c`: the run determines it, no closed form
    names it. -/
abbrev Left (c : Dev nD) : Type := (w : Fin cfg2.W) → Buf (Elt F) ((spec2 w).arr.view.loc (c : Thread nD τ))

/-- After the inner product's region, if it left `G` in its arrays: those at `G`, every other buffer as entered, -/
def W6 (c : Dev nD) (G : Left (F := F) c) : Valuation τ sig (Elt F) := Pipeline.withArrays spec2 c (W5 m c) G
theorem W6_arr (c : Dev nD) (G : Left (F := F) c) (w : Fin cfg2.W) :
    W6 m c G (Proc.devRef .tc (Pipeline.arrRef spec2 w)) = G w := by
  unfold W6; exact Pipeline.withArrays_arr spec2 launch2.win.arr_inj c _ _ w
theorem W6_of_ne (c : Dev nD) (G : Left (F := F) c) (b : Ref sig .tc) (hb : ∀ w, Pipeline.arrRef spec2 w ≠ b) :
    W6 m c G (Proc.devRef .tc b) = W5 m c (Proc.devRef .tc b) := by
  unfold W6; exact Pipeline.withArrays_of_ne spec2 c _ _ b hb
abbrev V6 (c : Dev nD) (G : Left (F := F) c) : (b : Ref sig .tc) → Buf (Elt F) ((c : Thread nD τ).loc b) := fun b => W6 m c G b
theorem hF2 (c : Dev nD) (G : Left (F := F) c) (w : Fin cfg2.W) : G w = V6 m c G (Pipeline.arrRef spec2 w) :=
  (W6_arr m c G w).symm
theorem hrest2 (c : Dev nD) (G : Left (F := F) c) : ∀ b, b ∉ Finset.univ.image (Pipeline.arrRef spec2) → V6 m c G b = V5 m c b :=
  fun b hb => W6_of_ne m c G b fun w e => hb (Finset.mem_image.mpr ⟨w, Finset.mem_univ _, e⟩)
/-- and after the last stretch. -/
abbrev W7 (c : Dev nD) (G : Left (F := F) c) : Valuation τ sig (Elt F) := StableHlo.after hostOps3 (W6 m c G)

/-- A buffer that no stretch writes and that is no array of any region ends as launched: the fold walks back through
    the four stretches (each leaves a buffer it does not write) and the three regions (each leaves a buffer that is
    none of its arrays). -/
theorem W7_of (c : Dev nD) (G : Left (F := F) c) (r : Ref sig .tc)
    (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W7 m c G (Proc.devRef .tc r) = m ((c : Thread nD τ).loc r) :=
  calc W7 m c G (Proc.devRef .tc r)
    _ = W6 m c G (Proc.devRef .tc r) := StableHlo.after_of_writes_sub hostOps3 _ hostOps3_writes h3
    _ = W5 m c (Proc.devRef .tc r) := W6_of_ne m c G r a2
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl

theorem W7_main_arg0 (c : Dev nD) (G : Left (F := F) c) : W7 m c G (Proc.devRef .tc main_arg0) = m ((c : Thread nD τ).loc main_arg0) :=
  W7_of m c G main_arg0 (by decide) (by decide) (by decide) (by decide) (by decide) (by decide) (by decide)
theorem W7_main_arg1 (c : Dev nD) (G : Left (F := F) c) : W7 m c G (Proc.devRef .tc main_arg1) = m ((c : Thread nD τ).loc main_arg1) :=
  W7_of m c G main_arg1 (by decide) (by decide) (by decide) (by decide) (by decide) (by decide) (by decide)
theorem W7_main_arg2 (c : Dev nD) (G : Left (F := F) c) : W7 m c G (Proc.devRef .tc main_arg2) = m ((c : Thread nD τ).loc main_arg2) :=
  W7_of m c G main_arg2 (by decide) (by decide) (by decide) (by decide) (by decide) (by decide) (by decide)
theorem W7_main_arg3 (c : Dev nD) (G : Left (F := F) c) : W7 m c G (Proc.devRef .tc main_arg3) = m ((c : Thread nD τ).loc main_arg3) :=
  W7_of m c G main_arg3 (by decide) (by decide) (by decide) (by decide) (by decide) (by decide) (by decide)
theorem W7_main_arg4 (c : Dev nD) (G : Left (F := F) c) : W7 m c G (Proc.devRef .tc main_arg4) = m ((c : Thread nD τ).loc main_arg4) :=
  W7_of m c G main_arg4 (by decide) (by decide) (by decide) (by decide) (by decide) (by decide) (by decide)
theorem W7_main_arg5 (c : Dev nD) (G : Left (F := F) c) : W7 m c G (Proc.devRef .tc main_arg5) = m ((c : Thread nD τ).loc main_arg5) :=
  W7_of m c G main_arg5 (by decide) (by decide) (by decide) (by decide) (by decide) (by decide) (by decide)
theorem W7_main_arg6 (c : Dev nD) (G : Left (F := F) c) : W7 m c G (Proc.devRef .tc main_arg6) = m ((c : Thread nD τ).loc main_arg6) :=
  W7_of m c G main_arg6 (by decide) (by decide) (by decide) (by decide) (by decide) (by decide) (by decide)
theorem W7_main_arg7 (c : Dev nD) (G : Left (F := F) c) : W7 m c G (Proc.devRef .tc main_arg7) = m ((c : Thread nD τ).loc main_arg7) :=
  W7_of m c G main_arg7 (by decide) (by decide) (by decide) (by decide) (by decide) (by decide) (by decide)
theorem W7_main_arg8 (c : Dev nD) (G : Left (F := F) c) : W7 m c G (Proc.devRef .tc main_arg8) = m ((c : Thread nD τ).loc main_arg8) :=
  W7_of m c G main_arg8 (by decide) (by decide) (by decide) (by decide) (by decide) (by decide) (by decide)

/-! # The proof data of the three regions and the thread state between segments -/

/-- Every region's proof data, each at the contents its region is entered from: the two layers' exact data read
    relationally, the inner product's relational data. -/
def rdats : (p : Fin 3) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toR
  | ⟨2, _⟩ => fun c => rdat2 (V5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A stretch of host operations as a segment: over the unscoped buffers at the contents `W`, it runs to them at
    `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A region's arrays at contents `A` beside the other unscoped buffers at `V` are the unscoped buffers at any
    valuation that has the arrays at `A` and agrees with `V` elsewhere. -/
theorem unscopedBufs_of_arrays
    (rds : (p : Fin 3) → (c : Dev nD) → RDat τ (Elt F) Unit ℕ (UR sig nD τ) ℕ (Pipeline.pin (pcfgs (F := F)) adm p) c)
    {p : Fin 3} (hw : Pipeline.WinFacts (Pipeline.pin (pcfgs (F := F)) adm p).spec)
    (harr : ∀ w, ((Pipeline.pin (pcfgs (F := F)) adm p).spec w).arr.IsWhole) (c : Dev nD)
    (hshare : ∀ w, (rds p c).share w = fullShare)
    (V V' : (b : Ref sig .tc) → Buf (Elt F) ((c : Thread nD τ).loc b))
    (A : (w : Fin (Pipeline.pin (pcfgs (F := F)) adm p).W) → Buf (Elt F) (((Pipeline.pin (pcfgs (F := F)) adm p).spec w).arr.view.loc (c : Thread nD τ)))
    (hA : ∀ w, A w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays A ∗ Pipeline.unscopedRest (Ix := Unit) (Name := ℕ) (U := UR sig nD τ) (Lvl := ℕ) (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hA])) (Entails.of_eq ?_)
  unfold Pipeline.unscopedRest
  exact bigSep_congr fun b hb => by rw [hrest b (Finset.mem_sdiff.mp hb).2]

/-! # The regions as segments -/

-- a library lemma stated over the pinned configuration unifies with the printed one only when unification may unfold
-- plain definitions in a metavariable's type
set_option backward.isDefEq.respectTransparency.types false in
/-- The first layer's region over the thread state: entered from every unscoped buffer at `W1`, left at `W2`. Its
    arrays are split out of the unscoped buffers at entry and put back, at what the write-backs left, at the exit;
    the generator register passes through the region's invariant; nothing is owed. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays (rdats m) (p := 0) launch0.win launch0.arr_whole c
      ((rdats m 0 c).share_full fun _ => rfl)
      (V1 m c) (V2 m c) ((dat0 (V1 m) c).arrAt · cfg0.N) (hF0 m c) (hrest0 m c)
    rw [Pipeline.unscopedBufs_held] at hjoin
    rw [show (rdats m 0 c).arraysAt (Pipeline.pin (pcfgs (F := F)) adm 0).N = (rdats m 0 c).arrays ((dat0 (V1 m) c).arrAt · cfg0.N)
      from (dat0 (V1 m) c).toR_arraysAt_eq cfg0.N]
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second layer's region over the thread state: entered from every unscoped buffer at `W3`, left at `W4`. Its
    arrays are split out of the unscoped buffers at entry and put back, at what the write-backs left, at the exit;
    the generator register passes through the region's invariant; nothing is owed. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays (rdats m) (p := 1) launch1.win launch1.arr_whole c
      ((rdats m 1 c).share_full fun _ => rfl)
      (V3 m c) (V4 m c) ((dat1 (V3 m) c).arrAt · cfg1.N) (hF1 m c) (hrest1 m c)
    rw [Pipeline.unscopedBufs_held] at hjoin
    rw [show (rdats m 1 c).arraysAt (Pipeline.pin (pcfgs (F := F)) adm 1).N = (rdats m 1 c).arrays ((dat1 (V3 m) c).arrAt · cfg1.N)
      from (dat1 (V3 m) c).toR_arraysAt_eq cfg1.N]
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

-- as above
set_option backward.isDefEq.respectTransparency.types false in
/-- The inner product's region over the thread state: entered from every unscoped buffer at `W5`; left with its three
    arrays at SOME contents `G` — what the write-backs of undetermined staging contents made of them — and every other
    buffer as entered (`W6 … G`). -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (V5 m) c
  hwaits := Pipeline.RDat.hwaits_of_owed_zero _ _ _ _ L lv 2 fun _ _ => rfl
  pre c := iprop(StableHlo.held (c : Thread nD τ) (Pipeline.ucRefs τ sig) (W5 m c) ∗ R c)
  post c := iprop(∃ G : Left (F := F) c, StableHlo.held (c : Thread nD τ) (Pipeline.ucRefs τ sig) (W6 m c G) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    -- each array is held at some contents: gather the three choices into one family
    have hex : ((rdats m 2 c).arraysAt (Pipeline.pin (pcfgs (F := F)) adm 2).N : sProp 𝕄)
        ⊢ iprop(∃ G : Left (F := F) c, (rdats m 2 c).arrays G) := by
      unfold RDat.arraysAt RDat.arrays
      exact (bigSep_exists_pi Finset.univ _).trans (exists_mono fun G => bigSep_mono fun w _ => by
        show (_ : sProp 𝕄) ⊢ _
        iintro ⟨-, Hp⟩; iexact Hp)
    iintro ⟨Ha, HO, HY, Hrest⟩
    ihave Ha' := hex $$ Ha
    icases Ha' with ⟨%G, Ha⟩
    have hjoin := unscopedBufs_of_arrays (rdats m) (p := 2) launch2.win launch2.arr_whole c
      ((rdats m 2 c).share_full fun _ => rfl) (V5 m c) (V6 m c G) G (hF2 m c G) (hrest2 m c G)
    rw [Pipeline.unscopedBufs_held] at hjoin
    imodintro
    iexists G
    isplitl [Ha Hrest]
    · iapply hjoin; isplitl [Ha] <;> iassumption
    isplitl [HY]; · iexact HY
    unfold Pipeline.RDat.owesAt Pipeline.owesWithin
    icases HO with ⟨%W, -, HO⟩; iexists W; iexact HO

-- a rule stated for any thread unifies at the TensorCore thread only when unification may unfold plain definitions
-- in a metavariable's type
set_option backward.isDefEq.respectTransparency.types false in
/-- The last stretch (one reshape of the inner product's result) as a segment: entered with the region's arrays at some
    contents `G`, it runs over the buffers at `W6 … G` to them at `W7 … G`, for the same `G`. -/
def seg6 : Pipeline.HostSeg (Name := ℕ) (U := UR sig nD τ) (pcfgs (F := F)) defs₀ 𝒱₀ L lv where
  prog := StableHlo.seq hostOps3
  pre c := iprop(∃ G : Left (F := F) c, StableHlo.held (c : Thread nD τ) (Pipeline.ucRefs τ sig) (W6 m c G) ∗ R c)
  post c := iprop(∃ G : Left (F := F) c, StableHlo.held (c : Thread nD τ) (Pipeline.ucRefs τ sig) (W7 m c G) ∗ R c)
  run c {β} k K := by
    iintro ⟨Hk, Hbd, ⟨%G, Hh, HR⟩, -⟩
    have hseq := StableHlo.wp_seq (defs := Pipeline.defs (pcfgs (F := F)) defs₀) (Variants.lift 𝒱₀) none Set.univ c (Pipeline.ucRefs τ sig) k (K := K)
      hostOps3 (fun op h => Pipeline.sub_ucRefs op ((List.forall_iff_forall_mem.mp hostOps3_sub) op h))
      (fun op h => (List.forall_iff_forall_mem.mp hostOps3_fresh) op h) (W6 m c G)
    iapply hseq $$ [Hbd Hh]
    · isplitl [Hbd] <;> iassumption
    iintro ⟨Hbd, Hh⟩
    iapply Hk
    isplitl [Hbd]; · iexact Hbd
    iexists G
    isplitl [Hh] <;> iassumption

/-! # The program as segments, and the launch -/

/-- The program's seven segments in order. -/
abbrev segs : List (Pipeline.RDat.Seg (pcfgs (F := F)) adm (rdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (seg6 m) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last boundary's contents, for some contents
    of the inner product's arrays, and the generator register at some state. -/
abbrev Tₙ (c : Dev nD) : sProp 𝕄 :=
  iprop(∃ G : Left (F := F) c, StableHlo.held (c : Thread nD τ) (Pipeline.ucRefs τ sig) (W7 m c G) ∗ ∃ r, prngReg c r)

/-- What the last stretch leaves is the last thread state beside the core owing nothing. -/
theorem last_state (c : Dev nD) :
    (iprop(∃ G : Left (F := F) c, StableHlo.held (c : Thread nD τ) (Pipeline.ucRefs τ sig) (W7 m c G) ∗ R c) : sProp 𝕄)
      ⊢ iprop(Tₙ m c ∗ ∃ W, owes (c : Thread nD τ) (0 : CellTallies nD τ sig Unit) W) := by
  iintro ⟨%G, Hh, Hp, HO⟩
  isplitl [Hh Hp]
  · iexists G; isplitl [Hh] <;> iassumption
  iexact HO

-- the launch theorem's implicit arguments are found by unifying its conclusion with this one, which takes unfolding
-- plain definitions in a metavariable's type
set_option backward.isDefEq.respectTransparency.types false in
/-- THE FRAME, at any float model: from any memory with zero counters, every weakly fair execution of the program on
    the TensorCores terminates, nothing faulting, and every final memory holds each of the nine argument arrays as
    launched. The segments' launch; the last thread state read against the final state; each argument by `W7_of`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s =>
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => by
      unfold Tₙ StableHlo.held
      iintro ⟨⟨%G, Hh, -⟩, HSI⟩
      ihave Hr := (pointsTo_read_all (Pipeline.ucRefs τ sig) (fun b => ((c : Thread nD τ).1, b)) (W7 m c G) s') $$ [Hh HSI]
      · isplitl [Hh] <;> iassumption
      icases Hr with ⟨%h, HSI⟩
      imodintro
      isplitr
      · ipureintro
        exact ⟨(h _ (mem_uc main_arg0 (by decide))).trans (W7_main_arg0 m c G),
          (h _ (mem_uc main_arg1 (by decide))).trans (W7_main_arg1 m c G),
          (h _ (mem_uc main_arg2 (by decide))).trans (W7_main_arg2 m c G),
          (h _ (mem_uc main_arg3 (by decide))).trans (W7_main_arg3 m c G),
          (h _ (mem_uc main_arg4 (by decide))).trans (W7_main_arg4 m c G),
          (h _ (mem_uc main_arg5 (by decide))).trans (W7_main_arg5 m c G),
          (h _ (mem_uc main_arg6 (by decide))).trans (W7_main_arg6 m c G),
          (h _ (mem_uc main_arg7 (by decide))).trans (W7_main_arg7 m c G),
          (h _ (mem_uc main_arg8 (by decide))).trans (W7_main_arg8 m c G)⟩
      · iexact HSI)
    (hQ := fun _ h => h)

/-- info: 'Cert.Kernel.BitsFrame.frame' depends on axioms: [propext, Classical.choice, Quot.sound] -/
#guard_msgs in #print axioms frame

end Cert.Kernel.BitsFrame

end
-- ==== Proof.IdealLayers.lean ====
/-
  The two dense layers of the graph network as pipeline regions: each grid point stages 4000 node rows of the
  aggregate, of the node features and of the degree column beside the two 64×64 weight matrices and the bias row,
  and stores (aggregate / degree) · Wl + features · Wr + bias (the first layer clamped below at zero) into the
  4000 rows of the result. Here: what each point's body leaves in its output block, as a function of the input
  blocks, and the body's run at a generic point.
-/
import proofs.«101352_j60773787238404_2_alg».proof.Proof.Gen.KernelIdeal.Launch
import proofs.«101352_j60773787238404_2_alg».proof.Proof.Gen.KernelIdeal.Skeleton
import proofs.«101352_j60773787238404_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first (rectified) layer's region (pipeline 0), at the contents `V` its buffers hold when it is entered -/

/-- Window `w`'s block at grid point `t`: the rows of its array that the point stages. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's staging buffer holds its block at every point, whether the point fetched it or the block
   index stood still since the fetch (the two weight matrices and the bias row are fetched once). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev rA0 : Rect S4000x64 := Rect.unit (s := S4000x64) ![0, 0] S4000x64.size inb_S4000x64_S4000x64_0_0
abbrev rD0 : Rect S4000x1 := Rect.unit (s := S4000x1) ![0, 0] S4000x1.size inb_S4000x1_S4000x1_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- What the body leaves in the output block: its one whole-block store of the layer's value computed from the six
    input blocks (aggregate rows, node rows, degree column, the two weight matrices, the bias row). -/
def out0_6 (x0 : Vec F S4000x64 .f32) (x1 : Vec F S4000x64 .f32) (x2 : Vec F S4000x1 .f32) (x3 : Vec F S64x64 .f32) (x4 : Vec F S64x64 .f32) (x5 : Vec F S1x64 .f32) : Vec F S4000x64 .f32 :=
  View.canon [⟨rA0, k0_pay1 (View.ld x2 rD0) (View.ld x0 rA0) (View.ld x1 rA0) (View.ld x3 rW0) (View.ld x4 rW0) (View.ld x5 rB0)⟩]

/-- The one store is the whole block. -/
theorem cover0_6 (p0 : Vec F S4000x64 .f32) (y : S4000x64.Idx) :
    ∃ pc ∈ ([⟨rA0, p0⟩] : List (View.Piece (Elt F) S4000x64 .f32)), y ∈ pc.1.set :=
  View.cover_of_tiled [⟨rA0, p0⟩] S4000x64.size (by rfl) y

set_option maxHeartbeats 4000000 in
/-- The body on whole staging buffers: the six inputs are read and left as they were, the output block ends at
    `out0_6` of them. -/
theorem sound_kernel0 (c : Dev nD) (E : Set ℕ) (i : grid0.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4000x64 .f32) (harg7 : arg7.IsWhole)
    (x0 : Vec F S4000x64 .f32) (x1 : Vec F S4000x64 .f32) (x2 : Vec F S4000x1 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The region's proof data on core `c`: the arrays as found at entry; after the body every input buffer at its
    block and the output buffer at the layer's value of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is handed at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

/-! # The second layer's region (pipeline 1), at the contents `V` its buffers hold when it is entered -/

/-- Window `w`'s block at grid point `t`: the rows of its array that the point stages. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input window's staging buffer holds its block at every point, whether the point fetched it or the block
   index stood still since the fetch (the two weight matrices and the bias row are fetched once). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev rA1 : Rect S4000x64 := Rect.unit (s := S4000x64) ![0, 0] S4000x64.size inb_S4000x64_S4000x64_0_0
abbrev rD1 : Rect S4000x1 := Rect.unit (s := S4000x1) ![0, 0] S4000x1.size inb_S4000x1_S4000x1_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output block: its one whole-block store of the layer's value computed from the six
    input blocks (aggregate rows, node rows, degree column, the two weight matrices, the bias row). -/
def out1_6 (x0 : Vec F S4000x64 .f32) (x1 : Vec F S4000x64 .f32) (x2 : Vec F S4000x1 .f32) (x3 : Vec F S64x64 .f32) (x4 : Vec F S64x64 .f32) (x5 : Vec F S1x64 .f32) : Vec F S4000x64 .f32 :=
  View.canon [⟨rA1, k1_pay1 (View.ld x2 rD1) (View.ld x0 rA1) (View.ld x1 rA1) (View.ld x3 rW1) (View.ld x4 rW1) (View.ld x5 rB1)⟩]

/-- The one store is the whole block. -/
theorem cover1_6 (p0 : Vec F S4000x64 .f32) (y : S4000x64.Idx) :
    ∃ pc ∈ ([⟨rA1, p0⟩] : List (View.Piece (Elt F) S4000x64 .f32)), y ∈ pc.1.set :=
  View.cover_of_tiled [⟨rA1, p0⟩] S4000x64.size (by rfl) y

set_option maxHeartbeats 4000000 in
/-- The body on whole staging buffers: the six inputs are read and left as they were, the output block ends at
    `out1_6` of them. -/
theorem sound_kernel1 (c : Dev nD) (E : Set ℕ) (i : grid1.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4000x64 .f32) (harg7 : arg7.IsWhole)
    (x0 : Vec F S4000x64 .f32) (x1 : Vec F S4000x64 .f32) (x2 : Vec F S4000x1 .f32) (x3 : Vec F S64x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__combine_kernel i arg1 harg1 arg2 harg2 arg3 harg3 arg4 harg4 arg5 harg5 arg6 harg6 arg7 harg7) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The region's proof data on core `c`: the arrays as found at entry; after the body every input buffer at its
    block and the output buffer at the layer's value of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is handed at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Regions

end Cert.KernelIdeal.Layers

end
-- ==== Proof.IdealEdgeBody.lean ====
/-
  The per-edge inner product as a pipeline region: each grid point stages 128 slabs of 128 edges, the two endpoint
  feature rows of every edge (64 wide), multiplies them entry by entry and sums over the 64 entries, storing one
  number per edge. Here: the body's run on whole staging buffers, whatever they hold — the last point's blocks
  reach past the arrays' 12500 slabs, and what the buffers hold there is not determined.
-/
import proofs.«101352_j60773787238404_2_alg».proof.Proof.Gen.KernelIdeal.Launch
import proofs.«101352_j60773787238404_2_alg».proof.Proof.Gen.KernelIdeal.Skeleton
import proofs.«101352_j60773787238404_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.EdgeBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev rI : Rect S128x128x64 := Rect.unit (s := S128x128x64) ![0, 0, 0] S128x128x64.size inb_S128x128x64_S128x128x64_0_0_0
abbrev rO : Rect S128x128 := Rect.unit (s := S128x128) ![0, 0] S128x128.size inb_S128x128_S128x128_0_0

/-- What the body leaves in the output block: its one whole-block store of the products' sums. -/
def out2_2 (x0 : Vec F S128x128x64 .f32) (x1 : Vec F S128x128x64 .f32) : Vec F S128x128 .f32 :=
  View.canon [⟨rO, k2_pay1 (View.ld x0 rI) (View.ld x1 rI)⟩]

theorem cover2_2 (p0 : Vec F S128x128 .f32) (y : S128x128.Idx) :
    ∃ pc ∈ ([⟨rO, p0⟩] : List (View.Piece (Elt F) S128x128 .f32)), y ∈ pc.1.set :=
  View.cover_of_tiled [⟨rO, p0⟩] S128x128.size (by rfl) y

/-- The whole-block store over whole-block loads is the payload of the two buffers' contents. -/
theorem out2_2_eq (x0 : Vec F S128x128x64 .f32) (x1 : Vec F S128x128x64 .f32) : out2_2 x0 x1 = k2_pay1 x0 x1 := by
  have hz2 : (![0, 0] : Fin 2 → Nat) = fun _ => 0 := funext fun a => by fin_cases a <;> rfl
  have hz3 : (![0, 0, 0] : Fin 3 → Nat) = fun _ => 0 := funext fun a => by fin_cases a <;> rfl
  unfold out2_2
  rw [View.canon_unit_zero hz2]
  simp only [View.ld_unit_zero (S := S128x128x64) hz3]

set_option maxHeartbeats 4000000 in
/-- The body on whole staging buffers: the two inputs are read and left as they were, the output block ends at the
    sums of their entrywise products. -/
theorem sound_kernel2 (c : Dev nD) (E : Set ℕ) (i : grid2.Coords) (arg1 : Memref sig .tc .vmem S128x128x64 .f32) (harg1 : arg1.IsWhole) (arg2 : Memref sig .tc .vmem S128x128x64 .f32) (harg2 : arg2.IsWhole) (arg3 : Memref sig .tc .vmem S128x128 .f32) (harg3 : arg3.IsWhole)
    (x0 : Vec F S128x128x64 .f32) (x1 : Vec F S128x128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k2_pay1 x0 x1)) -∗ K ⟨⟩))
      ⊢ wp frame (wpE (defs₀ (F := F)) Variants.none c none) E (cc2__edge_dot_kernel i arg1 harg1 arg2 harg2 arg3 harg3) K := by
  rw [← out2_2_eq]
  simp only [cc2__edge_dot_kernel_eq_skeleton]; unfold cc2__edge_dot_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

end Cert.KernelIdeal.EdgeBody

end
-- ==== Proof.IdealEdgeDot.lean ====
/-
  The per-edge inner product at the exact values. A grid point's block of the two feature arrays is 128 slabs of
  128 edges; the 98th block reaches 44 slabs past the arrays' 12500, and what the staging buffers hold on those
  slabs is not determined. An edge's result is the sum over its own 64 products only, so on the slabs inside the
  array the stored block does not depend on the undetermined part: that is what lets the region's data name the
  result on the part that is written back.
-/
import proofs.«101352_j60773787238404_2_alg».proof.Proof.Gen.KernelIdeal.Launch
import proofs.«101352_j60773787238404_2_alg».proof.Proof.Gen.KernelIdeal.Skeleton
import proofs.«101352_j60773787238404_2_alg».proof.Proof.Gen.KernelIdeal.Points
import proofs.«101352_j60773787238404_2_alg».proof.Proof.IdealEdgeBody
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.EdgeDot

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Cert.KernelIdeal.EdgeBody Idealize.ShloMosaic.ValueIdx

/-! ## The products' sums at an edge -/

/-- The stored value at slab `p`, edge `q`: the sum over the 64 features of the two rows' products. -/
theorem pay_apply (x0 x1 : Vec Ideal S128x128x64 .f32) (p q : Fin 128) :
    k2_pay1 (F := Ideal) x0 x1 (ix2 p q) = ∑ k : Fin 64, x0 (ix3 p q k) * x1 (ix3 p q k) := by
  unfold k2_pay1
  refine (Ideal.multiReduction_add_single _ _ _ _ _ _).trans ?_
  refine Finset.sum_congr rfl fun k _ => ?_
  have e : reduces_S128x128x64_S128x128.lift (ix2 p q) k = ix3 p q k :=
    funext fun a => Fin.ext (by match a with | ⟨0, _⟩ => rfl | ⟨1, _⟩ => rfl | ⟨2, _⟩ => rfl)
  rw [e]
  simp only [shapeCast_self]
  rfl

/-- Over the grid: the three windows are cut alike along the slabs, and not at all along the other axes. -/
theorem cuts_agree : ∀ t : Fin cfg2.N,
    win2_0.xsize (grid2.coords t) 0 = win2_2.xsize (grid2.coords t) 0 ∧ win2_1.xsize (grid2.coords t) 0 = win2_2.xsize (grid2.coords t) 0
    ∧ win2_0.xsize (grid2.coords t) 1 = 128 ∧ win2_1.xsize (grid2.coords t) 1 = 128
    ∧ win2_0.xsize (grid2.coords t) 2 = 64 ∧ win2_1.xsize (grid2.coords t) 2 = 64 :=
  (by decide +kernel : ∀ t : Fin grid2.N, _)

/-- An edge whose result is written back has both its feature rows inside the arrays. -/
theorem rows_moved (t : Fin cfg2.N) (p q : Fin 128) (k : Fin 64) (h : win2_2.moved (grid2.coords t) (ix2 p q) = true) :
    win2_0.moved (grid2.coords t) (ix3 p q k) = true ∧ win2_1.moved (grid2.coords t) (ix3 p q k) = true := by
  obtain ⟨h0, h1, h2, h3, h4, h5⟩ := cuts_agree t
  have hp := (win2_2.moved_iff _ _).mp h 0
  refine ⟨(win2_0.moved_iff _ _).mpr fun a => ?_, (win2_1.moved_iff _ _).mpr fun a => ?_⟩
  · match a with
    | ⟨0, _⟩ => show p.val < win2_0.xsize (grid2.coords t) 0; rw [h0]; exact hp
    | ⟨1, _⟩ => show q.val < win2_0.xsize (grid2.coords t) 1; rw [h2]; exact q.isLt
    | ⟨2, _⟩ => show k.val < win2_0.xsize (grid2.coords t) 2; rw [h4]; exact k.isLt
  · match a with
    | ⟨0, _⟩ => show p.val < win2_1.xsize (grid2.coords t) 0; rw [h1]; exact hp
    | ⟨1, _⟩ => show q.val < win2_1.xsize (grid2.coords t) 1; rw [h3]; exact q.isLt
    | ⟨2, _⟩ => show k.val < win2_1.xsize (grid2.coords t) 2; rw [h5]; exact k.isLt

/-- On the part written back, the stored block is the same whatever the buffers held outside the arrays. -/
theorem pay_local (t : Fin cfg2.N) (d0 d0' d1 d1' : S128x128x64.Idx → Elt Ideal .f32)
    (g0 : (win2_0.xblock (grid2.coords t)).Idx → Elt Ideal .f32) (g1 : (win2_1.xblock (grid2.coords t)).Idx → Elt Ideal .f32) :
    win2_2.cut (α := Elt Ideal .f32) (grid2.coords t) (k2_pay1 (F := Ideal) (win2_0.fill (grid2.coords t) d0 g0) (win2_1.fill (grid2.coords t) d1 g1))
      = win2_2.cut (α := Elt Ideal .f32) (grid2.coords t) (k2_pay1 (F := Ideal) (win2_0.fill (grid2.coords t) d0' g0) (win2_1.fill (grid2.coords t) d1' g1)) := by
  funext j
  show k2_pay1 _ _ (win2_2.xinj (grid2.coords t) j) = k2_pay1 _ _ (win2_2.xinj (grid2.coords t) j)
  have hm := win2_2.moved_xinj (grid2.coords t) j
  obtain ⟨p, q, e⟩ : ∃ (p q : Fin 128), win2_2.xinj (grid2.coords t) j = ix2 p q := ⟨_, _, eq_ix2 _⟩
  rw [e] at hm ⊢
  rw [pay_apply, pay_apply]
  refine Finset.sum_congr rfl fun k _ => ?_
  obtain ⟨m0, m1⟩ := rows_moved t p q k hm
  unfold Window.fill
  rw [dif_pos m0, dif_pos m0, dif_pos m1, dif_pos m1]

/-! ## The region's data, at the contents `V` its buffers hold when it is entered -/

section Region
variable (V : (c : Dev nD) → (b : Ref sig .tc) → Buf (Elt Ideal) ((c : Thread nD τ).loc b))

/-- The source rows' block at point `t`: its slabs inside the array. -/
def eblk0 (c : Dev nD) (t : Fin cfg2.N) : (win2_0.xblock (grid2.coords t)).Idx → Elt Ideal .f32 :=
  (win2_0.blk t).view.read (Elt Ideal) (V c (Pipeline.arrRef spec2 0))
/-- The destination rows' likewise. -/
def eblk1 (c : Dev nD) (t : Fin cfg2.N) : (win2_1.xblock (grid2.coords t)).Idx → Elt Ideal .f32 :=
  (win2_1.blk t).view.read (Elt Ideal) (V c (Pipeline.arrRef spec2 1))

/-- The blocks filled out to the staging buffers' size by zeros past the arrays' end (a choice nothing reads). -/
def full0 (c : Dev nD) (t : Fin cfg2.N) : S128x128x64.Idx → Elt Ideal .f32 :=
  win2_0.fill (grid2.coords t) (fun _ => Scalar.ofBits (F := Ideal) .f32 0#32) (eblk0 V c t)
def full1 (c : Dev nD) (t : Fin cfg2.N) : S128x128x64.Idx → Elt Ideal .f32 :=
  win2_1.fill (grid2.coords t) (fun _ => Scalar.ofBits (F := Ideal) .f32 0#32) (eblk1 V c t)

/-- The region's proof data: the arrays as found at entry; after the body the two input buffers at their blocks and
    the output buffer at the products' sums of those. -/
def dat2 (c : Dev nD) : Dat τ (Elt Ideal) Unit ℕ (UR sig nD τ) ℕ cfg2 c where
  A w := V c (Pipeline.arrRef spec2 w)
  after w t := match w with
    | ⟨0, _⟩ => full0 V c t
    | ⟨1, _⟩ => full1 V c t
    | ⟨2, _⟩ => k2_pay1 (F := Ideal) (full0 V c t) (full1 V c t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = full0 V c t := by dsimp only [dat2]
theorem after2_1 (c : Dev nD) (t : Fin cfg2.N) : (dat2 V c).after 1 t = full1 V c t := by dsimp only [dat2]
theorem after2_2 (c : Dev nD) (t : Fin cfg2.N) : (dat2 V c).after 2 t = k2_pay1 (F := Ideal) (full0 V c t) (full1 V c t) := by dsimp only [dat2]

/-- Both inputs are fetched at every point: the buffer holds the block inside the array and anything outside. -/
theorem before2_0 (c : Dev nD) (t : Fin cfg2.N) (d) :
    (dat2 V c).before (0 : Fin 3) t d = win2_0.fill (grid2.coords t) d (eblk0 V c t) := by
  unfold Dat.before; rw [if_pos (fetch2_0 t)]; rfl
theorem before2_1 (c : Dev nD) (t : Fin cfg2.N) (d) :
    (dat2 V c).before (1 : Fin 3) t d = win2_1.fill (grid2.coords t) d (eblk1 V c t) := by
  unfold Dat.before; rw [if_pos (fetch2_1 t)]; rfl

/-- The body obligation: every window is cut at the arrays' end, so each buffer is stated on the part inside. -/
theorem body_obligation2 (c : Dev nD) : BodyObligationLoose (dat2 V c) (defs₀ (F := Ideal)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  rw [before2_0 V c t d0, before2_1 V c t d1]
  iapply (sound_kernel2 (F := Ideal) c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2))
    (win2_0.fill (grid2.coords t) d0 (eblk0 V c t)) (win2_1.fill (grid2.coords t) d1 (eblk1 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win2_0.cut (grid2.coords t) (full0 V c t) = eblk0 V c t := win2_0.cut_fill _ _ _
  have hy : win2_1.cut (grid2.coords t) (full1 V c t) = eblk1 V c t := win2_1.cut_fill _ _ _
  isplitl [H0]
  · iexists d0
    change _ ⊢ owns (c : Thread nD τ) (stage2_0 (cfg2.slots t 0)) fullShare (win2_0.fill (grid2.coords t) d0 (win2_0.cut (grid2.coords t) (full0 V c t)))
    rw [hx]; try iexact H0
  isplitl [H1]
  · iexists d1
    change _ ⊢ owns (c : Thread nD τ) (stage2_1 (cfg2.slots t 1)) fullShare (win2_1.fill (grid2.coords t) d1 (win2_1.cut (grid2.coords t) (full1 V c t)))
    rw [hy]; try iexact H1
  · iexists k2_pay1 (F := Ideal) (win2_0.fill (grid2.coords t) d0 (eblk0 V c t)) (win2_1.fill (grid2.coords t) d1 (eblk1 V c t))
    have h := win2_2.fill_congr_cut (α := Elt Ideal .f32) (grid2.coords t)
      (pay_local t d0 (fun _ => Scalar.ofBits (F := Ideal) .f32 0#32) d1 (fun _ => Scalar.ofBits (F := Ideal) .f32 0#32) (eblk0 V c t) (eblk1 V c t))
    iapply (Entails.of_eq (congrArg (owns (c : Thread nD τ) (stage2_2 (cfg2.slots t 2)) fullShare) h.symm))
    iexact H2

end Region

end Cert.KernelIdeal.EdgeDot

end
-- ==== Proof.IdealRun.lean ====
/-
  The whole run of the idealized program: @main is four stretches of host operations around the three pipeline
  regions. The contents of every buffer are followed from the launch through each stretch (the operations' results)
  and each region (its output array at what the points' write-backs leave), and the launch theorem for a list of
  segments gives: every execution ends, with every unscoped buffer at the last of those contents.
-/
import proofs.«101352_j60773787238404_2_alg».proof.Proof.Gen.KernelIdeal.Launch
import proofs.«101352_j60773787238404_2_alg».proof.Proof.Gen.KernelIdeal.Skeleton
import proofs.«101352_j60773787238404_2_alg».proof.Proof.Gen.KernelIdeal.Points
import proofs.«101352_j60773787238404_2_alg».proof.Proof.IdealLayers
import proofs.«101352_j60773787238404_2_alg».proof.Proof.IdealEdgeDot
import proofs.«101352_j60773787238404_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Cert.KernelIdeal.Layers Cert.KernelIdeal.EdgeDot

variable (m : (ℓ : Loc nD τ sig) → Buf (Elt Ideal) ℓ) (ρ : Dev nD → PrngReg)

/-! ## The buffers' contents between the segments -/

/-- At launch. -/
abbrev W0 : Dev nD → Valuation τ sig (Elt Ideal) := fun c b => (s₀ m ρ).mem ((c : Dev nD), b)
/-- After the first host stretch (the embedding lookup, the degrees, the first aggregate, the transposed weights). -/
abbrev W1 : Dev nD → Valuation τ sig (Elt Ideal) := fun c => StableHlo.after hostOps0 (W0 m ρ c)
abbrev V1 : (c : Dev nD) → (b : Ref sig .tc) → Buf (Elt Ideal) ((c : Thread nD τ).loc b) := fun c b => W1 m ρ c b

/-- When region 0 is left: its arrays at what the write-backs leave, every other buffer as entered. -/
def W2 (c : Dev nD) : Valuation τ sig (Elt Ideal) :=
  Pipeline.withArrays spec0 c (W1 m ρ c) fun w => (dat0 (F := Ideal) (V1 m ρ) c).arrAt w cfg0.N
theorem W2_arr (c : Dev nD) (w : Fin cfg0.W) :
    W2 m ρ c (Proc.devRef .tc (Pipeline.arrRef spec0 w)) = (dat0 (F := Ideal) (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt Ideal) ((c : Thread nD τ).loc b) := fun c b => W2 m ρ c b
theorem hF0 (c : Dev nD) (w : Fin cfg0.W) : (dat0 (F := Ideal) (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second aggregate). -/
abbrev W3 : Dev nD → Valuation τ sig (Elt Ideal) := fun c => StableHlo.after hostOps1 (W2 m ρ c)
abbrev V3 : (c : Dev nD) → (b : Ref sig .tc) → Buf (Elt Ideal) ((c : Thread nD τ).loc b) := fun c b => W3 m ρ c b

/-- When region 1 is left: its arrays at what the write-backs leave, every other buffer as entered. -/
def W4 (c : Dev nD) : Valuation τ sig (Elt Ideal) :=
  Pipeline.withArrays spec1 c (W3 m ρ c) fun w => (dat1 (F := Ideal) (V3 m ρ) c).arrAt w cfg1.N
theorem W4_arr (c : Dev nD) (w : Fin cfg1.W) :
    W4 m ρ c (Proc.devRef .tc (Pipeline.arrRef spec1 w)) = (dat1 (F := Ideal) (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt Ideal) ((c : Thread nD τ).loc b) := fun c b => W4 m ρ c b
theorem hF1 (c : Dev nD) (w : Fin cfg1.W) : (dat1 (F := Ideal) (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the endpoint rows of every edge, in slabs of 128). -/
abbrev W5 : Dev nD → Valuation τ sig (Elt Ideal) := fun c => StableHlo.after hostOps2 (W4 m ρ c)
abbrev V5 : (c : Dev nD) → (b : Ref sig .tc) → Buf (Elt Ideal) ((c : Thread nD τ).loc b) := fun c b => W5 m ρ c b

/-- When region 2 is left: its arrays at what the write-backs leave, every other buffer as entered. -/
def W6 (c : Dev nD) : Valuation τ sig (Elt Ideal) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt Ideal) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch (the result flattened). -/
abbrev W7 : Dev nD → Valuation τ sig (Elt Ideal) := fun c => StableHlo.after hostOps3 (W6 m ρ c)

/-- A buffer that no host stretch writes and no region has as a window's array ends as launched. -/
theorem W7_kept (c : Dev nD) (r : Ref sig .tc) (h0 : r ∉ (hostOps0_W : List (Ref sig .tc))) (h1 : r ∉ (hostOps1_W : List (Ref sig .tc)))
    (h2 : r ∉ (hostOps2_W : List (Ref sig .tc))) (h3 : r ∉ (hostOps3_W : List (Ref sig .tc)))
    (n0 : ∀ w, Pipeline.arrRef spec0 w ≠ r) (n1 : ∀ w, Pipeline.arrRef spec1 w ≠ r) (n2 : ∀ w, Pipeline.arrRef spec2 w ≠ r) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r n2
    _ = W4 m ρ c (Proc.devRef .tc r) := StableHlo.after_of_writes_sub hostOps2 _ hostOps2_writes h2
    _ = W3 m ρ c (Proc.devRef .tc r) := W4_of_ne m ρ c r n1
    _ = W2 m ρ c (Proc.devRef .tc r) := StableHlo.after_of_writes_sub hostOps1 _ hostOps1_writes h1
    _ = W1 m ρ c (Proc.devRef .tc r) := W2_of_ne m ρ c r n0
    _ = W0 m ρ c (Proc.devRef .tc r) := StableHlo.after_of_writes_sub hostOps0 _ hostOps0_writes h0
    _ = m ((c : Thread nD τ).loc r) := rfl

/-! ## The proof data and the thread state -/

abbrev adm : (p : Fin 3) → (pcfgs (F := Ideal) p).Adm := fun p => (cfgs p).toPCfg_adm
/-- Each region's proof data at the contents its buffers hold when it is entered. -/
def pdats : (p : Fin 3) → (c : Dev nD) → Dat τ (Elt Ideal) Unit ℕ (UR sig nD τ) ℕ (Pipeline.pin (pcfgs (F := Ideal)) adm p) c
  | ⟨0, _⟩ => fun c => dat0 (F := Ideal) (V1 m ρ) c
  | ⟨1, _⟩ => fun c => dat1 (F := Ideal) (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 as a segment of @main: entered with every unscoped buffer at `W1`, left with them at `W2`: its
    windows' arrays are split out of the buffers at entry and put back at what the write-backs left. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (F := Ideal) (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at `W3`, left with them at `W4`: its
    windows' arrays are split out of the buffers at entry and put back at what the write-backs left. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (F := Ideal) (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main: entered with every unscoped buffer at `W5`, left with them at `W6`: its
    windows' arrays are split out of the buffers at entry and put back at what the write-backs left. -/
def reg2 : Pipeline.RegionSeg (pcfgs (F := Ideal)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V5 m ρ) c
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := Ideal)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := Ideal)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := Ideal) c = Pipeline.Seg.run (segs m ρ) := (main_chain c).trans (by chain_rfl)

set_option backward.isDefEq.respectTransparency.types false in
/-- THE RUN at the exact values: from any memory with zero counters every weakly fair execution of @main terminates,
    nothing faulting, and every final state has every unscoped buffer at the contents followed above. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      change iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

theorem W7_main_arg0 (c : Dev nD) : W7 m ρ c (Proc.devRef .tc main_arg0) = m ((c : Thread nD τ).loc main_arg0) :=
  W7_kept m ρ c main_arg0 (by decide) (by decide) (by decide) (by decide) (by decide) (by decide) (by decide)
theorem W7_main_arg1 (c : Dev nD) : W7 m ρ c (Proc.devRef .tc main_arg1) = m ((c : Thread nD τ).loc main_arg1) :=
  W7_kept m ρ c main_arg1 (by decide) (by decide) (by decide) (by decide) (by decide) (by decide) (by decide)
theorem W7_main_arg2 (c : Dev nD) : W7 m ρ c (Proc.devRef .tc main_arg2) = m ((c : Thread nD τ).loc main_arg2) :=
  W7_kept m ρ c main_arg2 (by decide) (by decide) (by decide) (by decide) (by decide) (by decide) (by decide)
theorem W7_main_arg3 (c : Dev nD) : W7 m ρ c (Proc.devRef .tc main_arg3) = m ((c : Thread nD τ).loc main_arg3) :=
  W7_kept m ρ c main_arg3 (by decide) (by decide) (by decide) (by decide) (by decide) (by decide) (by decide)
theorem W7_main_arg4 (c : Dev nD) : W7 m ρ c (Proc.devRef .tc main_arg4) = m ((c : Thread nD τ).loc main_arg4) :=
  W7_kept m ρ c main_arg4 (by decide) (by decide) (by decide) (by decide) (by decide) (by decide) (by decide)
theorem W7_main_arg5 (c : Dev nD) : W7 m ρ c (Proc.devRef .tc main_arg5) = m ((c : Thread nD τ).loc main_arg5) :=
  W7_kept m ρ c main_arg5 (by decide) (by decide) (by decide) (by decide) (by decide) (by decide) (by decide)
theorem W7_main_arg6 (c : Dev nD) : W7 m ρ c (Proc.devRef .tc main_arg6) = m ((c : Thread nD τ).loc main_arg6) :=
  W7_kept m ρ c main_arg6 (by decide) (by decide) (by decide) (by decide) (by decide) (by decide) (by decide)
theorem W7_main_arg7 (c : Dev nD) : W7 m ρ c (Proc.devRef .tc main_arg7) = m ((c : Thread nD τ).loc main_arg7) :=
  W7_kept m ρ c main_arg7 (by decide) (by decide) (by decide) (by decide) (by decide) (by decide) (by decide)
theorem W7_main_arg8 (c : Dev nD) : W7 m ρ c (Proc.devRef .tc main_arg8) = m ((c : Thread nD τ).loc main_arg8) :=
  W7_kept m ρ c main_arg8 (by decide) (by decide) (by decide) (by decide) (by decide) (by decide) (by decide)

/-- The run read at the result and the arguments: the result buffer ends at the followed contents, the arguments as
    launched. -/
theorem run_result : θ_run defs (onTc (τ := τ) (main (F := Ideal))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
    ⟨h c _ (mem_uc main_v63 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩) (run_all m ρ)

end Cert.KernelIdeal.Run

end
-- ==== Proof.GraphSpec.lean ====
/-
  The mathematics of the graph network at the exact values, over whole arrays.
  A dense layer takes the aggregate rows A, the node rows X, the degree column D, the two weight matrices (already
  transposed: Wl k j multiplies feature k into output feature j) and the bias row B, and gives at node i, feature j
      Σ_k (A i k / D i) · Wl k j  +  Σ_k X i k · Wr k j  +  B j,
  clamped below at zero in the first layer. The classifier gives, at slab p and edge q, the inner product of the two
  endpoint rows  Σ_k P p q k · Q p q k.
-/
import Idealize.ShloMosaic.PureOps.Ideal
import Idealize.ShloMosaic.Lib.ValueIdx

noncomputable section

namespace Cert.GraphSpec

open Idealize.ShloMosaic Idealize.ShloMosaic.ValueIdx

/-- One dense layer of the network at node `i 0`, feature `i 1` (`relu`: clamp below at zero). -/
def layer (relu : Bool) (A X : (⟨2, ![100000, 64]⟩ : Shape).Idx → EReal) (D : (⟨2, ![100000, 1]⟩ : Shape).Idx → EReal)
    (Wl Wr : (⟨2, ![64, 64]⟩ : Shape).Idx → EReal) (B : (⟨2, ![1, 64]⟩ : Shape).Idx → EReal) :
    (⟨2, ![100000, 64]⟩ : Shape).Idx → EReal := fun i =>
  let v := (∑ k : Fin 64, Ideal.div (A (ix2 (i 0) k)) (D (ix2 (i 0) 0)) * Wl (ix2 k (i 1)))
    + (∑ k : Fin 64, X (ix2 (i 0) k) * Wr (ix2 k (i 1))) + B (ix2 0 (i 1))
  if relu then max v (Ideal.ofBits .f32 0x00000000#32) else v

/-- The per-edge inner product of the endpoint rows, edges in slabs of 128. -/
def edge (P Q : (⟨3, ![12500, 128, 64]⟩ : Shape).Idx → EReal) : (⟨2, ![12500, 128]⟩ : Shape).Idx → EReal := fun j =>
  ∑ k : Fin 64, P (ix3 (j 0) (j 1) k) * Q (ix3 (j 0) (j 1) k)

end Cert.GraphSpec

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibColumnBroadcast.lean ====
/-
  One column broadcast over many.

  An `a × 1` column broadcast to `a × b` repeats, along each row, that row's one entry: the result at `(p, c)` is
  the column at `(p, 0)`, whatever the column coordinate `c`. (The companion of the row form, where a `1 × b` row
  is repeated down the rows.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.IdealLayerValue.lean ====
/-
  The dense layers' result arrays at the exact values. At an entry (row p of the block, feature q) the body's stored
  value is  Σ_k (a p k / d p) · wl k q + Σ_k x p k · wr k q + b q  (clamped below at zero in the first layer): the two
  matrix-unit products into zero are plain sums, a change of float format is the identity, the degree column and the
  bias row are repeated along the other axis. The blocks' rows are read where the result's rows are, and the 25 blocks
  cover the 100000 rows, so the result array ends at the layer's value of whole arrays.
-/
import proofs.«101352_j60773787238404_2_alg».proof.Proof.Gen.KernelIdeal.Launch
import proofs.«101352_j60773787238404_2_alg».proof.Proof.Gen.KernelIdeal.Skeleton
import proofs.«101352_j60773787238404_2_alg».proof.Proof.Gen.KernelIdeal.Points
import proofs.«101352_j60773787238404_2_alg».proof.Proof.IdealLayers
import proofs.«101352_j60773787238404_2_alg».proof.Proof.GraphSpec
import proofs.«101352_j60773787238404_2_alg».proof.Proof.LibDenseEntry
import proofs.«101352_j60773787238404_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.LayerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Cert.KernelIdeal.Layers Idealize.ShloMosaic.ValueIdx

theorem hz2 : (![0, 0] : Fin 2 → Nat) = fun _ => 0 := funext fun a => by fin_cases a <;> rfl

/-! ## The stored value at an entry -/

/-- The layer at row `p`, feature `q` of a block, before any clamp. -/
def lin (d : Vec Ideal S4000x1 .f32) (a x : Vec Ideal S4000x64 .f32) (wl wr : Vec Ideal S64x64 .f32) (b : Vec Ideal S1x64 .f32)
    (p : Fin 4000) (q : Fin 64) : EReal :=
  (∑ k : Fin 64, Ideal.div (a (ix2 p k)) (d (ix2 p (0 : Fin 1))) * wl (ix2 k q)) + (∑ k : Fin 64, x (ix2 p k) * wr (ix2 k q)) + b (ix2 (0 : Fin 1) q)

theorem pay1_apply (d : Vec Ideal S4000x1 .f32) (a x : Vec Ideal S4000x64 .f32) (wl wr : Vec Ideal S64x64 .f32) (b : Vec Ideal S1x64 .f32)
    (p : Fin 4000) (q : Fin 64) : k1_pay1 (F := Ideal) d a x wl wr b (ix2 p q) = lin d a x wl wr b p q := by
  unfold k1_pay1 lin
  refine (congrArg₂ (· + ·) (congrArg₂ (· + ·)
    (Cert.LibDenseEntry.matmul_plain_zero_apply dot_S4000x64_S64x64_S4000x64_1_0_0_1_n_n rfl rfl rfl rfl rfl rfl none _ _ p q)
    (Cert.LibDenseEntry.matmul_plain_zero_apply dot_S4000x64_S64x64_S4000x64_1_0_0_1_n_n rfl rfl rfl rfl rfl rfl none _ _ p q))
    (broadcastTo_1b_ab_apply _ broadcasts_S1x64_S4000x64 p q)).trans ?_
  refine congrArg₂ (· + ·) (congrArg₂ (· + ·) (Finset.sum_congr rfl fun k _ => ?_) (Finset.sum_congr rfl fun k _ => ?_)) ?_
  · refine congrArg₂ (· * ·) ?_ (congrFun (shapeCast_self wl _) _)
    show Ideal.div (shapeCast S4000x64 a shapeCasts_S4000x64_S4000x64 (ix2 p k)) (broadcastTo S4000x64 (shapeCast S4000x1 d shapeCasts_S4000x1_S4000x1) broadcasts_S4000x1_S4000x64 (ix2 p k)) = _
    rw [shapeCast_self, Cert.LibColumnBroadcast.broadcastTo_a1_ab_apply, shapeCast_self]
  · exact congrArg₂ (· * ·) (congrFun (shapeCast_self x _) _) (congrFun (shapeCast_self wr _) _)
  · exact congrFun (shapeCast_self b _) _

theorem pay0_apply (d : Vec Ideal S4000x1 .f32) (a x : Vec Ideal S4000x64 .f32) (wl wr : Vec Ideal S64x64 .f32) (b : Vec Ideal S1x64 .f32)
    (p : Fin 4000) (q : Fin 64) :
    k0_pay1 (F := Ideal) d a x wl wr b (ix2 p q) = max (lin d a x wl wr b p q) (Ideal.ofBits .f32 0x00000000#32) := by
  unfold k0_pay1
  show max (k1_pay1 (F := Ideal) d a x wl wr b (ix2 p q)) (Ideal.ofBits .f32 0x00000000#32) = _
  rw [pay1_apply]

section Regions
variable (V : (c : Dev nD) → (b : Ref sig .tc) → Buf (Elt Ideal) ((c : Thread nD τ).loc b))

/-! ## Region 0: its result array -/

/-- The layer's value over whole arrays, of the arrays the region finds. -/
def G0 (c : Dev nD) : S100000x64.Idx → EReal :=
  Cert.GraphSpec.layer true (V c main_v27 : S100000x64.Idx → EReal) (V c main_v6 : S100000x64.Idx → EReal) (V c main_v17 : S100000x1.Idx → EReal)
    (V c main_v28 : S64x64.Idx → EReal) (V c main_v29 : S64x64.Idx → EReal) (V c main_v30 : S1x64.Idx → EReal)

/-- Over the grid: point `t` stages rows 4000·t … of the three row-blocked arrays and of the result, and the whole
    of the two weight matrices and of the bias row. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 24 :=
  (by decide +kernel : ∀ t : Fin grid0.N, _)

theorem idx_onto0 : ∀ q0 : Fin 25, ∃ t : Fin cfg0.N, win0_6.index t (0 : Fin 2) = q0.val :=
  (by decide +kernel : ∀ q0 : Fin 25, ∃ t : Fin grid0.N, win0_6.index t (0 : Fin 2) = q0.val)

/-- What point `t` writes back is its 4000 rows of the layer's value. -/
theorem flushed0_eq (c : Dev nD) (t : Fin cfg0.N) :
    (dat0 (F := Ideal) V c).flushed 6 t = ((cfg0.win 6).blk t).view.read (Elt Ideal) (G0 V c) := by
  show (cfg0.win 6).cut (grid0.coords t) ((dat0 (F := Ideal) V c).after 6 t) = _
  rw [after0_6]
  unfold out0_6
  rw [View.canon_unit_zero hz2]
  simp only [View.ld_unit_zero (S := S4000x64) hz2, View.ld_unit_zero (S := S4000x1) hz2, View.ld_unit_zero (S := S64x64) hz2, View.ld_unit_zero (S := S1x64) hz2]
  obtain ⟨a0, a1, x0, x1, d0, d1, l0, l1, r0, r1, b0, b1, o1, o0⟩ := idx_facts0 t
  funext j
  obtain ⟨p, q, rfl⟩ : ∃ (p : Fin 4000) (q : Fin 64), j = ix2 p q := ⟨j 0, j 1, eq_ix2 j⟩
  refine (pay0_apply _ _ _ _ _ _ p q).trans ?_
  show _ = G0 V c (((cfg0.win 6).blk t).view.emb (ix2 p q))
  unfold G0 Cert.GraphSpec.layer
  have hp : p.val < 4000 := p.isLt
  have hq : q.val < 64 := q.isLt
  -- each input block, read where the result's rectangle says
  have eA : ∀ k : Fin 64, iblk0 V c 0 t (ix2 p k) = (V c main_v27 : S100000x64.Idx → EReal) (ix2 ((((cfg0.win 6).blk t).view.emb (ix2 p q)) 0) k) := fun k => by
    show (V c main_v27 : S100000x64.Idx → EReal) (((cfg0.win 0).blk t).view.emb (ix2 p k)) = _
    refine congrArg _ (funext fun a => Fin.ext ?_)
    match a with
    | ⟨0, _⟩ => show win0_0.index t (0 : Fin 2) * 4000 + 1 * p.val = win0_6.index t (0 : Fin 2) * 4000 + 1 * p.val; omega
    | ⟨1, _⟩ => show win0_0.index t (1 : Fin 2) * 64 + 1 * k.val = k.val; omega
  have eX : ∀ k : Fin 64, iblk0 V c 1 t (ix2 p k) = (V c main_v6 : S100000x64.Idx → EReal) (ix2 ((((cfg0.win 6).blk t).view.emb (ix2 p q)) 0) k) := fun k => by
    show (V c main_v6 : S100000x64.Idx → EReal) (((cfg0.win 1).blk t).view.emb (ix2 p k)) = _
    refine congrArg _ (funext fun a => Fin.ext ?_)
    match a with
    | ⟨0, _⟩ => show win0_1.index t (0 : Fin 2) * 4000 + 1 * p.val = win0_6.index t (0 : Fin 2) * 4000 + 1 * p.val; omega
    | ⟨1, _⟩ => show win0_1.index t (1 : Fin 2) * 64 + 1 * k.val = k.val; omega
  have eD : iblk0 V c 2 t (ix2 p (0 : Fin 1)) = (V c main_v17 : S100000x1.Idx → EReal) (ix2 ((((cfg0.win 6).blk t).view.emb (ix2 p q)) 0) (0 : Fin 1)) := by
    show (V c main_v17 : S100000x1.Idx → EReal) (((cfg0.win 2).blk t).view.emb (ix2 p (0 : Fin 1))) = _
    refine congrArg _ (funext fun a => Fin.ext ?_)
    match a with
    | ⟨0, _⟩ => show win0_2.index t (0 : Fin 2) * 4000 + 1 * p.val = win0_6.index t (0 : Fin 2) * 4000 + 1 * p.val; omega
    | ⟨1, _⟩ => show win0_2.index t (1 : Fin 2) * 1 + 1 * 0 = 0; omega
  have eL : ∀ k : Fin 64, iblk0 V c 3 t (ix2 k q) = (V c main_v28 : S64x64.Idx → EReal) (ix2 k ((((cfg0.win 6).blk t).view.emb (ix2 p q)) 1)) := fun k => by
    show (V c main_v28 : S64x64.Idx → EReal) (((cfg0.win 3).blk t).view.emb (ix2 k q)) = _
    refine congrArg _ (funext fun a => Fin.ext ?_)
    match a with
    | ⟨0, _⟩ => show win0_3.index t (0 : Fin 2) * 64 + 1 * k.val = k.val; omega
    | ⟨1, _⟩ => show win0_3.index t (1 : Fin 2) * 64 + 1 * q.val = win0_6.index t (1 : Fin 2) * 64 + 1 * q.val; omega
  have eR : ∀ k : Fin 64, iblk0 V c 4 t (ix2 k q) = (V c main_v29 : S64x64.Idx → EReal) (ix2 k ((((cfg0.win 6).blk t).view.emb (ix2 p q)) 1)) := fun k => by
    show (V c main_v29 : S64x64.Idx → EReal) (((cfg0.win 4).blk t).view.emb (ix2 k q)) = _
    refine congrArg _ (funext fun a => Fin.ext ?_)
    match a with
    | ⟨0, _⟩ => show win0_4.index t (0 : Fin 2) * 64 + 1 * k.val = k.val; omega
    | ⟨1, _⟩ => show win0_4.index t (1 : Fin 2) * 64 + 1 * q.val = win0_6.index t (1 : Fin 2) * 64 + 1 * q.val; omega
  have eB : iblk0 V c 5 t (ix2 (0 : Fin 1) q) = (V c main_v30 : S1x64.Idx → EReal) (ix2 (0 : Fin 1) ((((cfg0.win 6).blk t).view.emb (ix2 p q)) 1)) := by
    show (V c main_v30 : S1x64.Idx → EReal) (((cfg0.win 5).blk t).view.emb (ix2 (0 : Fin 1) q)) = _
    refine congrArg _ (funext fun a => Fin.ext ?_)
    match a with
    | ⟨0, _⟩ => show win0_5.index t (0 : Fin 2) * 1 + 1 * 0 = 0; omega
    | ⟨1, _⟩ => show win0_5.index t (1 : Fin 2) * 64 + 1 * q.val = win0_6.index t (1 : Fin 2) * 64 + 1 * q.val; omega
  unfold lin
  simp only [eA, eX, eD, eL, eR, eB]
  rfl

theorem mem_blk0 (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v31).slice (win0_6.rect t)).set ↔ _
  rw [View.set_slice_whole, Rect.mem_set_unit]
  exact Iff.rfl

/-- The 25 blocks of 4000 rows are all the 100000 rows. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := idx_onto0 ⟨(i 0).val / 4000, by omega⟩
  have q0 : win0_6.index t (0 : Fin 2) = (i 0).val / 4000 := ht
  obtain ⟨-, -, -, -, -, -, -, -, -, -, -, -, o1, -⟩ := idx_facts0 t
  refine ⟨t, flush0_6 t, ?_⟩
  rw [mem_blk0]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 64 ≤ (i 1).val ∧ (i 1).val < win0_6.index t (1 : Fin 2) * 64 + 64; omega

/-- THE RESULT ARRAY after the region: the layer's value of the arrays it found. -/
theorem final0 (c : Dev nD) : (dat0 (F := Ideal) V c).arrAt 6 cfg0.N = G0 V c :=
  (dat0 (F := Ideal) V c).arrAt_eq_of_cover 6 (G0 V c) (fun t _ => flushed0_eq V c t) (cover0)

/-! ## Region 1: its result array -/

/-- The layer's value over whole arrays, of the arrays the region finds. -/
def G1 (c : Dev nD) : S100000x64.Idx → EReal :=
  Cert.GraphSpec.layer false (V c main_v41 : S100000x64.Idx → EReal) (V c main_v31 : S100000x64.Idx → EReal) (V c main_v17 : S100000x1.Idx → EReal)
    (V c main_v42 : S64x64.Idx → EReal) (V c main_v43 : S64x64.Idx → EReal) (V c main_v44 : S1x64.Idx → EReal)

/-- Over the grid: point `t` stages rows 4000·t … of the three row-blocked arrays and of the result, and the whole
    of the two weight matrices and of the bias row. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 24 :=
  (by decide +kernel : ∀ t : Fin grid1.N, _)

theorem idx_onto1 : ∀ q0 : Fin 25, ∃ t : Fin cfg1.N, win1_6.index t (0 : Fin 2) = q0.val :=
  (by decide +kernel : ∀ q0 : Fin 25, ∃ t : Fin grid1.N, win1_6.index t (0 : Fin 2) = q0.val)

/-- What point `t` writes back is its 4000 rows of the layer's value. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  unfold out1_6
  rw [View.canon_unit_zero hz2]
  simp only [View.ld_unit_zero (S := S4000x64) hz2, View.ld_unit_zero (S := S4000x1) hz2, View.ld_unit_zero (S := S64x64) hz2, View.ld_unit_zero (S := S1x64) hz2]
  obtain ⟨a0, a1, x0, x1, d0, d1, l0, l1, r0, r1, b0, b1, o1, o0⟩ := idx_facts1 t
  funext j
  obtain ⟨p, q, rfl⟩ : ∃ (p : Fin 4000) (q : Fin 64), j = ix2 p q := ⟨j 0, j 1, eq_ix2 j⟩
  refine (pay1_apply _ _ _ _ _ _ p q).trans ?_
  show _ = G1 V c (((cfg1.win 6).blk t).view.emb (ix2 p q))
  unfold G1 Cert.GraphSpec.layer
  have hp : p.val < 4000 := p.isLt
  have hq : q.val < 64 := q.isLt
  -- each input block, read where the result's rectangle says
  have eA : ∀ k : Fin 64, iblk1 V c 0 t (ix2 p k) = (V c main_v41 : S100000x64.Idx → EReal) (ix2 ((((cfg1.win 6).blk t).view.emb (ix2 p q)) 0) k) := fun k => by
    show (V c main_v41 : S100000x64.Idx → EReal) (((cfg1.win 0).blk t).view.emb (ix2 p k)) = _
    refine congrArg _ (funext fun a => Fin.ext ?_)
    match a with
    | ⟨0, _⟩ => show win1_0.index t (0 : Fin 2) * 4000 + 1 * p.val = win1_6.index t (0 : Fin 2) * 4000 + 1 * p.val; omega
    | ⟨1, _⟩ => show win1_0.index t (1 : Fin 2) * 64 + 1 * k.val = k.val; omega
  have eX : ∀ k : Fin 64, iblk1 V c 1 t (ix2 p k) = (V c main_v31 : S100000x64.Idx → EReal) (ix2 ((((cfg1.win 6).blk t).view.emb (ix2 p q)) 0) k) := fun k => by
    show (V c main_v31 : S100000x64.Idx → EReal) (((cfg1.win 1).blk t).view.emb (ix2 p k)) = _
    refine congrArg _ (funext fun a => Fin.ext ?_)
    match a with
    | ⟨0, _⟩ => show win1_1.index t (0 : Fin 2) * 4000 + 1 * p.val = win1_6.index t (0 : Fin 2) * 4000 + 1 * p.val; omega
    | ⟨1, _⟩ => show win1_1.index t (1 : Fin 2) * 64 + 1 * k.val = k.val; omega
  have eD : iblk1 V c 2 t (ix2 p (0 : Fin 1)) = (V c main_v17 : S100000x1.Idx → EReal) (ix2 ((((cfg1.win 6).blk t).view.emb (ix2 p q)) 0) (0 : Fin 1)) := by
    show (V c main_v17 : S100000x1.Idx → EReal) (((cfg1.win 2).blk t).view.emb (ix2 p (0 : Fin 1))) = _
    refine congrArg _ (funext fun a => Fin.ext ?_)
    match a with
    | ⟨0, _⟩ => show win1_2.index t (0 : Fin 2) * 4000 + 1 * p.val = win1_6.index t (0 : Fin 2) * 4000 + 1 * p.val; omega
    | ⟨1, _⟩ => show win1_2.index t (1 : Fin 2) * 1 + 1 * 0 = 0; omega
  have eL : ∀ k : Fin 64, iblk1 V c 3 t (ix2 k q) = (V c main_v42 : S64x64.Idx → EReal) (ix2 k ((((cfg1.win 6).blk t).view.emb (ix2 p q)) 1)) := fun k => by
    show (V c main_v42 : S64x64.Idx → EReal) (((cfg1.win 3).blk t).view.emb (ix2 k q)) = _
    refine congrArg _ (funext fun a => Fin.ext ?_)
    match a with
    | ⟨0, _⟩ => show win1_3.index t (0 : Fin 2) * 64 + 1 * k.val = k.val; omega
    | ⟨1, _⟩ => show win1_3.index t (1 : Fin 2) * 64 + 1 * q.val = win1_6.index t (1 : Fin 2) * 64 + 1 * q.val; omega
  have eR : ∀ k : Fin 64, iblk1 V c 4 t (ix2 k q) = (V c main_v43 : S64x64.Idx → EReal) (ix2 k ((((cfg1.win 6).blk t).view.emb (ix2 p q)) 1)) := fun k => by
    show (V c main_v43 : S64x64.Idx → EReal) (((cfg1.win 4).blk t).view.emb (ix2 k q)) = _
    refine congrArg _ (funext fun a => Fin.ext ?_)
    match a with
    | ⟨0, _⟩ => show win1_4.index t (0 : Fin 2) * 64 + 1 * k.val = k.val; omega
    | ⟨1, _⟩ => show win1_4.index t (1 : Fin 2) * 64 + 1 * q.val = win1_6.index t (1 : Fin 2) * 64 + 1 * q.val; omega
  have eB : iblk1 V c 5 t (ix2 (0 : Fin 1) q) = (V c main_v44 : S1x64.Idx → EReal) (ix2 (0 : Fin 1) ((((cfg1.win 6).blk t).view.emb (ix2 p q)) 1)) := by
    show (V c main_v44 : S1x64.Idx → EReal) (((cfg1.win 5).blk t).view.emb (ix2 (0 : Fin 1) q)) = _
    refine congrArg _ (funext fun a => Fin.ext ?_)
    match a with
    | ⟨0, _⟩ => show win1_5.index t (0 : Fin 2) * 1 + 1 * 0 = 0; omega
    | ⟨1, _⟩ => show win1_5.index t (1 : Fin 2) * 64 + 1 * q.val = win1_6.index t (1 : Fin 2) * 64 + 1 * q.val; omega
  unfold lin
  simp only [eA, eX, eD, eL, eR, eB]
  rfl

theorem mem_blk1 (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v45).slice (win1_6.rect t)).set ↔ _
  rw [View.set_slice_whole, Rect.mem_set_unit]
  exact Iff.rfl

/-- The 25 blocks of 4000 rows are all the 100000 rows. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := idx_onto1 ⟨(i 0).val / 4000, by omega⟩
  have q0 : win1_6.index t (0 : Fin 2) = (i 0).val / 4000 := ht
  obtain ⟨-, -, -, -, -, -, -, -, -, -, -, -, o1, -⟩ := idx_facts1 t
  refine ⟨t, flush1_6 t, ?_⟩
  rw [mem_blk1]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 64 ≤ (i 1).val ∧ (i 1).val < win1_6.index t (1 : Fin 2) * 64 + 64; omega

/-- THE RESULT ARRAY after the region: the layer's value of the arrays it found. -/
theorem final1 (c : Dev nD) : (dat1 (F := Ideal) V c).arrAt 6 cfg1.N = G1 V c :=
  (dat1 (F := Ideal) V c).arrAt_eq_of_cover 6 (G1 V c) (fun t _ => flushed1_eq V c t) (cover1)

end Regions

end Cert.KernelIdeal.LayerValue

end
-- ==== Proof.IdealEdgeValue.lean ====
/-
  The classifier's result array at the exact values. Point `t` writes back slabs 128·t … of the result, cut at slab
  12500; on those slabs an edge's stored value is the sum of its own 64 products of the endpoint rows the point
  fetched, which are the rows of the whole arrays at the same slab and edge. The 98 cut blocks cover the 12500 slabs,
  so the result array ends at the inner products of whole arrays.
-/
import proofs.«101352_j60773787238404_2_alg».proof.Proof.Gen.KernelIdeal.Launch
import proofs.«101352_j60773787238404_2_alg».proof.Proof.Gen.KernelIdeal.Skeleton
import proofs.«101352_j60773787238404_2_alg».proof.Proof.Gen.KernelIdeal.Points
import proofs.«101352_j60773787238404_2_alg».proof.Proof.IdealEdgeDot
import proofs.«101352_j60773787238404_2_alg».proof.Proof.GraphSpec
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.EdgeValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Cert.KernelIdeal.EdgeBody Cert.KernelIdeal.EdgeDot Idealize.ShloMosaic.ValueIdx

section Region
variable (V : (c : Dev nD) → (b : Ref sig .tc) → Buf (Elt Ideal) ((c : Thread nD τ).loc b))

/-- The inner products over whole arrays, of the two endpoint-row arrays the region finds. -/
def G2 (c : Dev nD) : S12500x128.Idx → EReal :=
  Cert.GraphSpec.edge (V c main_v53 : S12500x128x64.Idx → EReal) (V c main_v61 : S12500x128x64.Idx → EReal)

/-- Over the grid: point `t` stages slabs 128·t … of all three arrays, whole along the other axes, the slabs cut
    at 12500. -/
theorem idx_facts2 : ∀ t : Fin cfg2.N,
    win2_0.index t (0 : Fin 3) = win2_2.index t (0 : Fin 2) ∧ win2_0.index t (1 : Fin 3) = 0 ∧ win2_0.index t (2 : Fin 3) = 0
    ∧ win2_1.index t (0 : Fin 3) = win2_2.index t (0 : Fin 2) ∧ win2_1.index t (1 : Fin 3) = 0 ∧ win2_1.index t (2 : Fin 3) = 0
    ∧ win2_2.index t (1 : Fin 2) = 0 ∧ win2_2.index t (0 : Fin 2) ≤ 97
    ∧ win2_2.index t (0 : Fin 2) * 128 + win2_2.xsize (grid2.coords t) (0 : Fin 2) = min (win2_2.index t (0 : Fin 2) * 128 + 128) 12500
    ∧ win2_2.xsize (grid2.coords t) (1 : Fin 2) = 128 :=
  (by decide +kernel : ∀ t : Fin grid2.N, _)

theorem idx_onto2 : ∀ q0 : Fin 98, ∃ t : Fin cfg2.N, win2_2.index t (0 : Fin 2) = q0.val :=
  (by decide +kernel : ∀ q0 : Fin 98, ∃ t : Fin grid2.N, win2_2.index t (0 : Fin 2) = q0.val)

/-- What point `t` writes back is its slabs of the inner products. -/
theorem flushed2_eq (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  obtain ⟨a0, a1, a2, b0, b1, b2, o1, o0, ox, oy⟩ := idx_facts2 t
  funext j
  show k2_pay1 (F := Ideal) (full0 V c t) (full1 V c t) (win2_2.xinj (grid2.coords t) j) = G2 V c (((cfg2.win 2).blk t).view.emb j)
  have hm := win2_2.moved_xinj (grid2.coords t) j
  obtain ⟨p, q, e⟩ : ∃ (p q : Fin 128), win2_2.xinj (grid2.coords t) j = ix2 p q := ⟨_, _, eq_ix2 _⟩
  have hp : p.val = (j 0).val := congrArg (fun z => (z 0).val) e.symm
  have hq : q.val = (j 1).val := congrArg (fun z => (z 1).val) e.symm
  rw [e] at hm ⊢
  rw [pay_apply]
  unfold G2 Cert.GraphSpec.edge
  refine Finset.sum_congr rfl fun k _ => ?_
  obtain ⟨m0, m1⟩ := rows_moved t p q k hm
  have e0 : full0 V c t (ix3 p q k) = (V c main_v53 : S12500x128x64.Idx → EReal) (ix3 ((((cfg2.win 2).blk t).view.emb j) 0) ((((cfg2.win 2).blk t).view.emb j) 1) k) := by
    unfold full0 Window.fill
    rw [dif_pos m0]
    show (V c main_v53 : S12500x128x64.Idx → EReal) (((cfg2.win 0).blk t).view.emb _) = _
    refine congrArg _ (funext fun a => Fin.ext ?_)
    match a with
    | ⟨0, _⟩ => show win2_0.index t (0 : Fin 3) * 128 + 1 * p.val = win2_2.index t (0 : Fin 2) * 128 + 1 * (j 0).val; omega
    | ⟨1, _⟩ => show win2_0.index t (1 : Fin 3) * 128 + 1 * q.val = win2_2.index t (1 : Fin 2) * 128 + 1 * (j 1).val; omega
    | ⟨2, _⟩ => show win2_0.index t (2 : Fin 3) * 64 + 1 * k.val = k.val; omega
  have e1 : full1 V c t (ix3 p q k) = (V c main_v61 : S12500x128x64.Idx → EReal) (ix3 ((((cfg2.win 2).blk t).view.emb j) 0) ((((cfg2.win 2).blk t).view.emb j) 1) k) := by
    unfold full1 Window.fill
    rw [dif_pos m1]
    show (V c main_v61 : S12500x128x64.Idx → EReal) (((cfg2.win 1).blk t).view.emb _) = _
    refine congrArg _ (funext fun a => Fin.ext ?_)
    match a with
    | ⟨0, _⟩ => show win2_1.index t (0 : Fin 3) * 128 + 1 * p.val = win2_2.index t (0 : Fin 2) * 128 + 1 * (j 0).val; omega
    | ⟨1, _⟩ => show win2_1.index t (1 : Fin 3) * 128 + 1 * q.val = win2_2.index t (1 : Fin 2) * 128 + 1 * (j 1).val; omega
    | ⟨2, _⟩ => show win2_1.index t (2 : Fin 3) * 64 + 1 * k.val = k.val; omega
  rw [e0, e1]

theorem mem_blk2 (t : Fin cfg2.N) (i : S12500x128.Idx) :
    i ∈ ((cfg2.win 2).blk t).view.set ↔ ∀ a : Fin 2, win2_2.index t a * S128x128.size a ≤ (i a).val ∧ (i a).val < win2_2.index t a * S128x128.size a + win2_2.xsize (grid2.coords t) a := by
  show i ∈ ((View.whole main_v62).slice (win2_2.rect t)).set ↔ _
  rw [View.set_slice_whole, Rect.mem_set_unit]
  exact Iff.rfl

/-- The 98 blocks of 128 slabs, the last cut to 84, are all the 12500 slabs. -/
theorem cover2 (i : S12500x128.Idx) : ∃ t : Fin cfg2.N, (cfg2.win 2).flush t = true ∧ i ∈ ((cfg2.win 2).blk t).view.set := by
  have hi0 : (i 0).val < 12500 := (i 0).isLt
  have hi1 : (i 1).val < 128 := (i 1).isLt
  obtain ⟨t, ht⟩ := idx_onto2 ⟨(i 0).val / 128, by omega⟩
  have q0 : win2_2.index t (0 : Fin 2) = (i 0).val / 128 := ht
  obtain ⟨-, -, -, -, -, -, o1, o0, ox, oy⟩ := idx_facts2 t
  refine ⟨t, flush2_2 t, ?_⟩
  rw [mem_blk2]
  intro a
  match a with
  | ⟨0, _⟩ => show win2_2.index t (0 : Fin 2) * 128 ≤ (i 0).val ∧ (i 0).val < win2_2.index t (0 : Fin 2) * 128 + win2_2.xsize (grid2.coords t) (0 : Fin 2); omega
  | ⟨1, _⟩ => show win2_2.index t (1 : Fin 2) * 128 ≤ (i 1).val ∧ (i 1).val < win2_2.index t (1 : Fin 2) * 128 + win2_2.xsize (grid2.coords t) (1 : Fin 2); omega

/-- THE RESULT ARRAY after the region: the inner products of the arrays it found. -/
theorem final2 (c : Dev nD) : (dat2 V c).arrAt 2 cfg2.N = G2 V c :=
  (dat2 V c).arrAt_eq_of_cover 2 (G2 V c) (fun t _ => flushed2_eq V c t) (cover2)

end Region

end Cert.KernelIdeal.EdgeValue

end
-- ==== Proof.RefLayers.lean ====
/-
  The reference program's host operations, read as whole arrays at the exact values.
  A dense layer of the reference is two matrix products, a division of the aggregate rows by the degree vector
  (broadcast along the features), and a bias vector broadcast along the nodes; read at node i and feature j it is
      Σ_k (A i k / d i) · Wl k j  +  Σ_k X i k · Wr k j  +  b j,
  which is the layer of the specification with the degree vector viewed as a column and the bias vector as a row.
  The classifier of the reference multiplies the two endpoint rows of every edge elementwise and sums along the
  features; edge e lies in slab e / 128 at place e % 128, so this is the specification's inner product with the
  edge arrays viewed in slabs of 128.
-/
import proofs.«101352_j60773787238404_2_alg».proof.Proof.Gen.ReferenceIdeal.Read
import proofs.«101352_j60773787238404_2_alg».proof.Proof.GraphSpec

noncomputable section

namespace Cert.ReferenceIdeal.RefLayers

open Cert.ReferenceIdeal Cert.ReferenceIdeal.Gen Idealize.ShloMosaic Idealize.ShloMosaic.TcCoe Idealize.SL.Sem
  Idealize.ShloMosaic.StableHlo Idealize.ShloMosaic.ValueIdx

/-- A matrix product of node rows with a [64,64] matrix, read at node `i 0` and feature `i 1`: the sum over the
    contracted feature `k` of the row's entry `k` times the matrix's entry `(k, i 1)`. -/
theorem dot_apply (L : (⟨S100000x64, .f32⟩ : BufTy).Contents (Elt Ideal)) (R : (⟨S64x64, .f32⟩ : BufTy).Contents (Elt Ideal))
    (i : S100000x64.Idx) :
    Host.dotGeneral (F := Ideal) (φ₁ := .f32) (φ₂ := .f32) dot_S100000x64_S64x64_S100000x64_1_0_0_1_n_n none L R i
      = ∑ k : Fin 64, L (ix2 (i 0) k) * R (ix2 k (i 1)) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = ix2 (i 0) k := funext fun a => Fin.ext (by
    match a with
    | ⟨0, _⟩ => exact Read.lhs_main_v31_0 _ _
    | ⟨1, _⟩ => exact (Read.lhs_main_v31_1 _ _).trans hk)
  have er : dot_S100000x64_S64x64_S100000x64_1_0_0_1_n_n.rhsIdx i ((ValueIdx.contrEquiv1 dot_S100000x64_S64x64_S100000x64_1_0_0_1_n_n 64 rfl rfl).symm k) = ix2 k (i 1) := funext fun a => Fin.ext (by
    match a with
    | ⟨0, _⟩ => exact (Read.rhs_main_v31_0 _ _).trans hk
    | ⟨1, _⟩ => exact Read.rhs_main_v31_1 _ _)
  rw [el, er]
  rfl

/-- The degree vector broadcast to a column and then along the features, read at `i`: the degree of node `i 0`. -/
theorem deg_apply (dv : (⟨S100000, .f32⟩ : BufTy).Contents (Elt Ideal)) (i : S100000x64.Idx) :
    broadcastInDim S100000x64 ![0, 1] bcast_S100000x1_S100000x64_0_1 (broadcastInDim S100000x1 ![0] bcast_S100000_S100000x1_0 dv) i
      = dv (ix1 (i 0)) := by
  rw [broadcastInDim_apply _ bcast_S100000x1_S100000x64_0_1 _ i (ix2 (i 0) 0) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  exact broadcastInDim_apply _ bcast_S100000_S100000x1_0 dv (ix2 (i 0) 0) (ix1 (i 0)) (fun a => match a with
    | ⟨0, _⟩ => by show (i 0).val = if (100000 : Nat) = 1 then 0 else (i 0).val; rw [if_neg (by decide)])

/-- The bias vector broadcast to a row and then along the nodes, read at `i`: the bias of feature `i 1`. -/
theorem bias_apply (b : (⟨S64, .f32⟩ : BufTy).Contents (Elt Ideal)) (i : S100000x64.Idx) :
    broadcastInDim S100000x64 ![0, 1] bcast_S1x64_S100000x64_0_1 (broadcastInDim S1x64 ![1] bcast_S64_S1x64_1 b) i
      = b (ix1 (i 1)) := by
  rw [broadcastInDim_apply _ bcast_S1x64_S100000x64_0_1 _ i (ix2 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  exact broadcastInDim_apply _ bcast_S64_S1x64_1 b (ix2 0 (i 1)) (ix1 (i 1)) (fun a => match a with
    | ⟨0, _⟩ => by show (i 1).val = if (64 : Nat) = 1 then 0 else (i 1).val; rw [if_neg (by decide)])

/-- The degree vector viewed as a column, read at row `r`: the degree of node `r`. -/
theorem col_apply (dv : (⟨S100000, .f32⟩ : BufTy).Contents (Elt Ideal)) (h1 : S100000.ShapeCasts S100000x1) (r : Fin 100000) :
    shapeCast S100000x1 dv h1 (ix2 r 0) = dv (ix1 r) :=
  shapeCast_apply dv h1 (ix2 r 0) (ix1 r) (by
    rw [Shape.rowMajor_val_one, Shape.rowMajor_val_two]; show r.val = r.val * 1 + 0; omega)

/-- The bias vector viewed as a row, read at column `c`: the bias of feature `c`. -/
theorem row_apply (b : (⟨S64, .f32⟩ : BufTy).Contents (Elt Ideal)) (h2 : S64.ShapeCasts S1x64) (c : Fin 64) :
    shapeCast S1x64 b h2 (ix2 0 c) = b (ix1 c) :=
  shapeCast_apply b h2 (ix2 0 c) (ix1 c) (by
    rw [Shape.rowMajor_val_one, Shape.rowMajor_val_two]; show c.val = 0 * 64 + c.val; omega)

/-- The reference's dense layer without the clamp, read at node `i 0` and feature `i 1`. -/
theorem layer_apply (A X : (⟨S100000x64, .f32⟩ : BufTy).Contents (Elt Ideal)) (dv : (⟨S100000, .f32⟩ : BufTy).Contents (Elt Ideal))
    (WlT WrT : (⟨S64x64, .f32⟩ : BufTy).Contents (Elt Ideal)) (b : (⟨S64, .f32⟩ : BufTy).Contents (Elt Ideal))
    (h1 : S100000.ShapeCasts S100000x1) (h2 : S64.ShapeCasts S1x64) (i : S100000x64.Idx) :
    addf (F := Ideal) (addf (F := Ideal)
        (Host.dotGeneral (F := Ideal) (φ₁ := .f32) (φ₂ := .f32) dot_S100000x64_S64x64_S100000x64_1_0_0_1_n_n none
          (Host.divf (F := Ideal) A (broadcastInDim S100000x64 ![0, 1] bcast_S100000x1_S100000x64_0_1 (broadcastInDim S100000x1 ![0] bcast_S100000_S100000x1_0 dv))) WlT)
        (Host.dotGeneral (F := Ideal) (φ₁ := .f32) (φ₂ := .f32) dot_S100000x64_S64x64_S100000x64_1_0_0_1_n_n none X WrT))
      (broadcastInDim S100000x64 ![0, 1] bcast_S1x64_S100000x64_0_1 (broadcastInDim S1x64 ![1] bcast_S64_S1x64_1 b)) i
      = (∑ k : Fin 64, Ideal.div (A (ix2 (i 0) k)) (shapeCast S100000x1 dv h1 (ix2 (i 0) 0)) * WlT (ix2 k (i 1)))
        + (∑ k : Fin 64, X (ix2 (i 0) k) * WrT (ix2 k (i 1))) + shapeCast S1x64 b h2 (ix2 0 (i 1)) := by
  rw [addf_apply, addf_apply, dot_apply, dot_apply, bias_apply]
  refine congrArg₂ (· + ·) (congrArg (· + _) (Finset.sum_congr rfl fun k _ => ?_)) (row_apply b h2 (i 1)).symm
  refine congrArg (· * _) ?_
  show Ideal.div (A (ix2 (i 0) k)) (broadcastInDim S100000x64 ![0, 1] bcast_S100000x1_S100000x64_0_1 (broadcastInDim S100000x1 ![0] bcast_S100000_S100000x1_0 dv) (ix2 (i 0) k)) = _
  rw [deg_apply]
  exact congrArg (Ideal.div _) (col_apply dv h1 (i 0)).symm

/-- The reference's second dense layer, as a whole array: the layer of the specification, the degree vector
    viewed as a column and the bias vector as a row. -/
theorem refLayer_plain (A X : (⟨S100000x64, .f32⟩ : BufTy).Contents (Elt Ideal)) (dv : (⟨S100000, .f32⟩ : BufTy).Contents (Elt Ideal))
    (WlT WrT : (⟨S64x64, .f32⟩ : BufTy).Contents (Elt Ideal)) (b : (⟨S64, .f32⟩ : BufTy).Contents (Elt Ideal))
    (h1 : S100000.ShapeCasts S100000x1) (h2 : S64.ShapeCasts S1x64) :
    addf (F := Ideal) (addf (F := Ideal)
        (Host.dotGeneral (F := Ideal) (φ₁ := .f32) (φ₂ := .f32) dot_S100000x64_S64x64_S100000x64_1_0_0_1_n_n none
          (Host.divf (F := Ideal) A (broadcastInDim S100000x64 ![0, 1] bcast_S100000x1_S100000x64_0_1 (broadcastInDim S100000x1 ![0] bcast_S100000_S100000x1_0 dv))) WlT)
        (Host.dotGeneral (F := Ideal) (φ₁ := .f32) (φ₂ := .f32) dot_S100000x64_S64x64_S100000x64_1_0_0_1_n_n none X WrT))
      (broadcastInDim S100000x64 ![0, 1] bcast_S1x64_S100000x64_0_1 (broadcastInDim S1x64 ![1] bcast_S64_S1x64_1 b))
      = Cert.GraphSpec.layer false A X (shapeCast S100000x1 dv h1) WlT WrT (shapeCast S1x64 b h2) := by
  funext i
  rw [layer_apply A X dv WlT WrT b h1 h2 i]
  rfl

/-- The reference's first dense layer with its clamp at zero, as a whole array. -/
theorem refLayer_relu (A X : (⟨S100000x64, .f32⟩ : BufTy).Contents (Elt Ideal)) (dv : (⟨S100000, .f32⟩ : BufTy).Contents (Elt Ideal))
    (WlT WrT : (⟨S64x64, .f32⟩ : BufTy).Contents (Elt Ideal)) (b : (⟨S64, .f32⟩ : BufTy).Contents (Elt Ideal))
    (h1 : S100000.ShapeCasts S100000x1) (h2 : S64.ShapeCasts S1x64) :
    maximumf (F := Ideal) (addf (F := Ideal) (addf (F := Ideal)
        (Host.dotGeneral (F := Ideal) (φ₁ := .f32) (φ₂ := .f32) dot_S100000x64_S64x64_S100000x64_1_0_0_1_n_n none
          (Host.divf (F := Ideal) A (broadcastInDim S100000x64 ![0, 1] bcast_S100000x1_S100000x64_0_1 (broadcastInDim S100000x1 ![0] bcast_S100000_S100000x1_0 dv))) WlT)
        (Host.dotGeneral (F := Ideal) (φ₁ := .f32) (φ₂ := .f32) dot_S100000x64_S64x64_S100000x64_1_0_0_1_n_n none X WrT))
      (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
      = Cert.GraphSpec.layer true A X (shapeCast S100000x1 dv h1) WlT WrT (shapeCast S1x64 b h2) := by
  funext i
  rw [maximumf_apply, layer_apply A X dv WlT WrT b h1 h2 i,
    broadcastInDim_apply _ bcast_S_S100000x64 (constant (F := Ideal) S_ .f32 0x00000000#32) i (fun a => a.elim0) (fun a => a.elim0)]
  rfl

/-- The reference's sum along the features (from the initial value zero), read at edge `e 0`: the sum of the row's
    64 entries. -/
theorem reduce_apply (Y : (⟨S1600000x64, .f32⟩ : BufTy).Contents (Elt Ideal)) (e : S1600000.Idx) :
    Host.reduceAdd (F := Ideal) (φ := .f32) Y (constant (F := Ideal) S_ .f32 0x00000000#32) reducesTo_S1600000x64_S1600000_d1 h_S_ e
      = ∑ k : Fin 64, Y (ix2 (e 0) k) := by
  simp only [Host.reduceAdd, Ideal.hostReduceAdd_def]
  rw [Ideal.hostReduceAdd_single reducesTo_S1600000x64_S1600000_d1 (by decide), constant_apply, Ideal.ofBits_zero_f32, zero_add]
  refine Finset.sum_congr rfl fun k _ => ?_
  exact congrArg Y (funext fun a => Fin.ext (by match a with | ⟨0, _⟩ => rfl | ⟨1, _⟩ => rfl))

/-- An edge array viewed in slabs of 128 edges, read at slab `e / 128`, place `e % 128`, feature `k`: row `e`,
    entry `k` (both have row-major position `e · 64 + k`). -/
theorem slab_apply (Y : (⟨S1600000x64, .f32⟩ : BufTy).Contents (Elt Ideal)) (h53 : S1600000x64.ShapeCasts ⟨3, ![12500, 128, 64]⟩)
    (e : Fin 1600000) (k : Fin 64) :
    shapeCast (⟨3, ![12500, 128, 64]⟩ : Shape) Y h53
        (ix3 (⟨e.val / 128, by have := e.isLt; omega⟩ : Fin 12500) (⟨e.val % 128, Nat.mod_lt _ (by decide)⟩ : Fin 128) k)
      = Y (ix2 e k) :=
  shapeCast_apply Y h53 _ (ix2 e k) (by
    rw [Shape.rowMajor_val_two, Shape.rowMajor_val_three]
    show e.val * 64 + k.val = (e.val / 128 * 128 + e.val % 128) * 64 + k.val
    omega)

/-- The reference's classifier, as a whole array: the specification's per-edge inner product of the endpoint
    rows viewed in slabs of 128 edges, flattened back to one axis of 1600000 edges. -/
theorem refEdge (P Q : (⟨S1600000x64, .f32⟩ : BufTy).Contents (Elt Ideal))
    (h53 : S1600000x64.ShapeCasts ⟨3, ![12500, 128, 64]⟩) (h63 : (⟨2, ![12500, 128]⟩ : Shape).ShapeCasts S1600000) :
    Host.reduceAdd (F := Ideal) (φ := .f32) (mulf (F := Ideal) P Q) (constant (F := Ideal) S_ .f32 0x00000000#32) reducesTo_S1600000x64_S1600000_d1 h_S_
      = shapeCast S1600000 (Cert.GraphSpec.edge (shapeCast (⟨3, ![12500, 128, 64]⟩ : Shape) P h53) (shapeCast (⟨3, ![12500, 128, 64]⟩ : Shape) Q h53)) h63 := by
  funext e
  rw [reduce_apply,
    shapeCast_apply (Cert.GraphSpec.edge (shapeCast (⟨3, ![12500, 128, 64]⟩ : Shape) P h53) (shapeCast (⟨3, ![12500, 128, 64]⟩ : Shape) Q h53)) h63 e
      (ix2 (⟨(e 0).val / 128, by have := (e 0).isLt; change (e 0).val < 1600000 at this; omega⟩ : Fin 12500) (⟨(e 0).val % 128, Nat.mod_lt _ (by decide)⟩ : Fin 128)) (by
        rw [Shape.rowMajor_val_two, Shape.rowMajor_val_one]
        show (e 0).val / 128 * 128 + (e 0).val % 128 = (e 0).val
        omega)]
  unfold Cert.GraphSpec.edge
  refine Finset.sum_congr rfl fun k _ => ?_
  exact (congrArg₂ (· * ·) (slab_apply P h53 (e 0) k) (slab_apply Q h53 (e 0) k)).symm

end Cert.ReferenceIdeal.RefLayers

end
-- ==== Proof.IdealBridge.lean ====
/-
  The idealized kernel's result is the reference's. Every array the kernel's host operations compute is named by the
  reference's own stage that computes the same thing from the same arguments (the lookups, the aggregates, the
  degrees, the transposed weights are literally the same operations); each dense region's result array is the
  reference's layer (the kernel divides by the degree column and multiplies by the transposed weights block by
  block, the reference over whole arrays: one value, entry by entry); the classifier region's result, flattened, is
  the reference's row sums of the products.
-/
import proofs.«101352_j60773787238404_2_alg».proof.Proof.IdealRun
import proofs.«101352_j60773787238404_2_alg».proof.Proof.IdealLayerValue
import proofs.«101352_j60773787238404_2_alg».proof.Proof.IdealEdgeValue
import proofs.«101352_j60773787238404_2_alg».proof.Proof.RefLayers
import proofs.«101352_j60773787238404_2_alg».proof.Proof.Gen.ReferenceIdeal.Read
import Idealize.ShloMosaic.Lib.StableHlo.Run

set_option maxRecDepth 16384

noncomputable section

namespace Cert.KernelIdeal.Bridge

open Cert.KernelIdeal Cert.KernelIdeal.Gen Cert.KernelIdeal.Run Cert.KernelIdeal.Layers Cert.KernelIdeal.EdgeDot
open Cert.KernelIdeal.LayerValue Cert.KernelIdeal.EdgeValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The argument arrays. -/
abbrev A0 : S100000x64.Idx → EReal := m ((c : Thread nD τ).loc main_arg0)
abbrev A1 : S64x64.Idx → EReal := m ((c : Thread nD τ).loc main_arg1)
abbrev A2 : S64x64.Idx → EReal := m ((c : Thread nD τ).loc main_arg2)
abbrev A3 : S64.Idx → EReal := m ((c : Thread nD τ).loc main_arg3)
abbrev A4 : S64x64.Idx → EReal := m ((c : Thread nD τ).loc main_arg4)
abbrev A5 : S64x64.Idx → EReal := m ((c : Thread nD τ).loc main_arg5)
abbrev A6 : S64.Idx → EReal := m ((c : Thread nD τ).loc main_arg6)
abbrev A7 : S100000.Idx → BitVec 32 := m ((c : Thread nD τ).loc main_arg7)
abbrev A8 : S2x1600000.Idx → BitVec 32 := m ((c : Thread nD τ).loc main_arg8)

/-! ## The first host stretch -/

set_option maxHeartbeats 4000000 in
theorem k1_v6 : (W1 m ρ c (Proc.devRef .tc main_v6) : S100000x64.Idx → EReal) = Cert.ReferenceIdeal.Read.val_main_v6 (F := Ideal) (A0 m c) (A7 m c) := by
  show StableHlo.after hostOps0 (W0 m ρ c) (Proc.devRef .tc main_v6) = _
  after_results_simp
  rfl
set_option maxHeartbeats 4000000 in
theorem k1_v8 : (W1 m ρ c (Proc.devRef .tc main_v8) : S1600000.Idx → BitVec 32) = Cert.ReferenceIdeal.Read.val_main_v8 (F := Ideal) (A8 m c) := by
  show StableHlo.after hostOps0 (W0 m ρ c) (Proc.devRef .tc main_v8) = _
  after_results_simp
  rfl
set_option maxHeartbeats 4000000 in
theorem k1_v10 : (W1 m ρ c (Proc.devRef .tc main_v10) : S1600000.Idx → BitVec 32) = Cert.ReferenceIdeal.Read.val_main_v10 (F := Ideal) (A8 m c) := by
  show StableHlo.after hostOps0 (W0 m ρ c) (Proc.devRef .tc main_v10) = _
  after_results_simp
  rfl
set_option maxHeartbeats 4000000 in
theorem k1_v17 : (W1 m ρ c (Proc.devRef .tc main_v17) : S100000x1.Idx → EReal) = shapeCast S100000x1 (Cert.ReferenceIdeal.Read.val_main_v26 (F := Ideal) (A8 m c)) shapeCasts_S100000_S100000x1 := by
  show StableHlo.after hostOps0 (W0 m ρ c) (Proc.devRef .tc main_v17) = _
  after_results_simp
  rfl
set_option maxHeartbeats 4000000 in
theorem k1_v27 : (W1 m ρ c (Proc.devRef .tc main_v27) : S100000x64.Idx → EReal) = Cert.ReferenceIdeal.Read.val_main_v20 (F := Ideal) (A0 m c) (A7 m c) (A8 m c) := by
  show StableHlo.after hostOps0 (W0 m ρ c) (Proc.devRef .tc main_v27) = _
  after_results_simp
  rfl
set_option maxHeartbeats 4000000 in
theorem k1_v28 : (W1 m ρ c (Proc.devRef .tc main_v28) : S64x64.Idx → EReal) = Cert.ReferenceIdeal.Read.val_main_v30 (F := Ideal) (A1 m c) := by
  show StableHlo.after hostOps0 (W0 m ρ c) (Proc.devRef .tc main_v28) = _
  after_results_simp
  rfl
set_option maxHeartbeats 4000000 in
theorem k1_v29 : (W1 m ρ c (Proc.devRef .tc main_v29) : S64x64.Idx → EReal) = Cert.ReferenceIdeal.Read.val_main_v32 (F := Ideal) (A2 m c) := by
  show StableHlo.after hostOps0 (W0 m ρ c) (Proc.devRef .tc main_v29) = _
  after_results_simp
  rfl
set_option maxHeartbeats 4000000 in
theorem k1_v30 : (W1 m ρ c (Proc.devRef .tc main_v30) : S1x64.Idx → EReal) = shapeCast S1x64 (A3 m c) shapeCasts_S64_S1x64 := by
  show StableHlo.after hostOps0 (W0 m ρ c) (Proc.devRef .tc main_v30) = _
  after_results_simp
  rfl

/-! ## The first dense region -/

set_option maxHeartbeats 4000000 in
/-- The first layer's result array is the reference's rectified first layer. -/
theorem h1_eq : (W2 m ρ c (Proc.devRef .tc main_v31) : S100000x64.Idx → EReal)
    = Cert.ReferenceIdeal.Read.val_main_v38 (F := Ideal) (A0 m c) (A1 m c) (A2 m c) (A3 m c) (A7 m c) (A8 m c) := by
  refine (W2_arr m ρ c 6).trans ((final0 (V1 m ρ) c).trans ?_)
  unfold G0
  rw [show (V1 m ρ c main_v27 : S100000x64.Idx → EReal) = _ from k1_v27 m ρ c, show (V1 m ρ c main_v6 : S100000x64.Idx → EReal) = _ from k1_v6 m ρ c,
    show (V1 m ρ c main_v17 : S100000x1.Idx → EReal) = _ from k1_v17 m ρ c, show (V1 m ρ c main_v28 : S64x64.Idx → EReal) = _ from k1_v28 m ρ c,
    show (V1 m ρ c main_v29 : S64x64.Idx → EReal) = _ from k1_v29 m ρ c, show (V1 m ρ c main_v30 : S1x64.Idx → EReal) = _ from k1_v30 m ρ c]
  refine (Cert.ReferenceIdeal.RefLayers.refLayer_relu _ _ _ _ _ _ _ _).symm.trans ?_
  rfl

end Cert.KernelIdeal.Bridge

end
-- ==== Proof.IdealBridge2.lean ====
/-
  The idealized kernel's result is the reference's, continued: the second and third host stretches, the second dense
  region and the classifier region. An array that a stretch does not write and that is no window's array of a region
  is carried through unchanged; an input window's array is left by its region as entered. So the edge endpoints, the
  degree column and the first layer's result reach the second stretch as the reference's stages name them, the second
  aggregate is the reference's, the second region's result array is the reference's second layer, the endpoint rows
  gathered from it (viewed in slabs of 128 edges) are the reference's, and the classifier region's inner products,
  flattened, are the reference's row sums of the products.
-/
import proofs.«101352_j60773787238404_2_alg».proof.Proof.IdealBridge

set_option maxRecDepth 16384

noncomputable section

namespace Cert.KernelIdeal.Bridge

open Cert.KernelIdeal Cert.KernelIdeal.Gen Cert.KernelIdeal.Run Cert.KernelIdeal.Layers Cert.KernelIdeal.EdgeDot
open Cert.KernelIdeal.LayerValue Cert.KernelIdeal.EdgeValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Arrays carried through unchanged -/

/-- The first host stretch leaves an array it does not write as launched. -/
theorem W1_keep (b : Ref sig .tc) (hb : b ∉ (hostOps0_W : List (Ref sig .tc))) :
    W1 m ρ c (Proc.devRef .tc b) = m ((c : Thread nD τ).loc b) :=
  (StableHlo.after_of_writes_sub hostOps0 _ hostOps0_writes hb).trans rfl
/-- The second host stretch leaves an array it does not write as the first region left it. -/
theorem W3_keep (b : Ref sig .tc) (hb : b ∉ (hostOps1_W : List (Ref sig .tc))) :
    W3 m ρ c (Proc.devRef .tc b) = W2 m ρ c (Proc.devRef .tc b) :=
  StableHlo.after_of_writes_sub hostOps1 _ hostOps1_writes hb
/-- The third host stretch leaves an array it does not write as the second region left it. -/
theorem W5_keep (b : Ref sig .tc) (hb : b ∉ (hostOps2_W : List (Ref sig .tc))) :
    W5 m ρ c (Proc.devRef .tc b) = W4 m ρ c (Proc.devRef .tc b) :=
  StableHlo.after_of_writes_sub hostOps2 _ hostOps2_writes hb

/-- An input window's array is left by the first region as it was entered. -/
theorem W2_in (w : Fin cfg0.W) (hin : (cfg0.win w).isOut = false) :
    W2 m ρ c (Proc.devRef .tc (Pipeline.arrRef spec0 w)) = V1 m ρ c (Pipeline.arrRef spec0 w) :=
  (W2_arr m ρ c w).trans (((dat0 (F := Ideal) (V1 m ρ) c).arrAt_in w hin _).trans (A_eq0 (V1 m ρ) c w))
/-- An input window's array is left by the second region as it was entered. -/
theorem W4_in (w : Fin cfg1.W) (hin : (cfg1.win w).isOut = false) :
    W4 m ρ c (Proc.devRef .tc (Pipeline.arrRef spec1 w)) = V3 m ρ c (Pipeline.arrRef spec1 w) :=
  (W4_arr m ρ c w).trans (((dat1 (F := Ideal) (V3 m ρ) c).arrAt_in w hin _).trans (A_eq1 (V3 m ρ) c w))

/-- The source endpoints of the edges, when the first region is left. -/
theorem W2_v8 : (W2 m ρ c (Proc.devRef .tc main_v8) : S1600000.Idx → BitVec 32) = Cert.ReferenceIdeal.Read.val_main_v8 (F := Ideal) (A8 m c) :=
  (W2_of_ne m ρ c main_v8 (by decide)).trans (k1_v8 m ρ c)
/-- The destination endpoints of the edges, when the first region is left. -/
theorem W2_v10 : (W2 m ρ c (Proc.devRef .tc main_v10) : S1600000.Idx → BitVec 32) = Cert.ReferenceIdeal.Read.val_main_v10 (F := Ideal) (A8 m c) :=
  (W2_of_ne m ρ c main_v10 (by decide)).trans (k1_v10 m ρ c)
/-- The degree column, when the first region (which only reads it) is left. -/
theorem W2_v17 : (W2 m ρ c (Proc.devRef .tc main_v17) : S100000x1.Idx → EReal)
    = shapeCast S100000x1 (Cert.ReferenceIdeal.Read.val_main_v26 (F := Ideal) (A8 m c)) shapeCasts_S100000_S100000x1 :=
  (W2_in m ρ c 2 rfl).trans (k1_v17 m ρ c)
/-- The second layer's weights and bias are still as launched when the first region is left. -/
theorem W2_arg4 : (W2 m ρ c (Proc.devRef .tc main_arg4) : S64x64.Idx → EReal) = A4 m c :=
  (W2_of_ne m ρ c main_arg4 (by decide)).trans (W1_keep m ρ c main_arg4 (by decide))
theorem W2_arg5 : (W2 m ρ c (Proc.devRef .tc main_arg5) : S64x64.Idx → EReal) = A5 m c :=
  (W2_of_ne m ρ c main_arg5 (by decide)).trans (W1_keep m ρ c main_arg5 (by decide))
theorem W2_arg6 : (W2 m ρ c (Proc.devRef .tc main_arg6) : S64.Idx → EReal) = A6 m c :=
  (W2_of_ne m ρ c main_arg6 (by decide)).trans (W1_keep m ρ c main_arg6 (by decide))

/-! ## The second host stretch -/

set_option maxHeartbeats 4000000 in
/-- The second aggregate: the first layer's rows gathered at the source endpoints and summed into the destinations. -/
theorem k3_v41 : (W3 m ρ c (Proc.devRef .tc main_v41) : S100000x64.Idx → EReal)
    = Cert.ReferenceIdeal.Read.val_main_v52 (F := Ideal) (A0 m c) (A1 m c) (A2 m c) (A3 m c) (A7 m c) (A8 m c) := by
  show StableHlo.after hostOps1 (W2 m ρ c) (Proc.devRef .tc main_v41) = _
  after_results_simp
  rw [W2_v8 m ρ c, W2_v10 m ρ c, h1_eq m ρ c]
  rfl
/-- The first layer's result, which the second stretch only reads. -/
theorem k3_v31 : (W3 m ρ c (Proc.devRef .tc main_v31) : S100000x64.Idx → EReal)
    = Cert.ReferenceIdeal.Read.val_main_v38 (F := Ideal) (A0 m c) (A1 m c) (A2 m c) (A3 m c) (A7 m c) (A8 m c) :=
  (W3_keep m ρ c main_v31 (by decide)).trans (h1_eq m ρ c)
/-- The degree column: computed once by the kernel, recomputed by the reference from the same endpoints. -/
theorem k3_v17 : (W3 m ρ c (Proc.devRef .tc main_v17) : S100000x1.Idx → EReal)
    = shapeCast S100000x1 (Cert.ReferenceIdeal.Read.val_main_v58 (F := Ideal) (A8 m c)) shapeCasts_S100000_S100000x1 :=
  (W3_keep m ρ c main_v17 (by decide)).trans ((W2_v17 m ρ c).trans rfl)
set_option maxHeartbeats 4000000 in
/-- The second layer's transposed weight matrices and its bias as a row. -/
theorem k3_v42 : (W3 m ρ c (Proc.devRef .tc main_v42) : S64x64.Idx → EReal) = Cert.ReferenceIdeal.Read.val_main_v62 (F := Ideal) (A4 m c) := by
  show StableHlo.after hostOps1 (W2 m ρ c) (Proc.devRef .tc main_v42) = _
  after_results_simp
  rw [W2_arg4 m ρ c]
  rfl
set_option maxHeartbeats 4000000 in
theorem k3_v43 : (W3 m ρ c (Proc.devRef .tc main_v43) : S64x64.Idx → EReal) = Cert.ReferenceIdeal.Read.val_main_v64 (F := Ideal) (A5 m c) := by
  show StableHlo.after hostOps1 (W2 m ρ c) (Proc.devRef .tc main_v43) = _
  after_results_simp
  rw [W2_arg5 m ρ c]
  rfl
set_option maxHeartbeats 4000000 in
theorem k3_v44 : (W3 m ρ c (Proc.devRef .tc main_v44) : S1x64.Idx → EReal) = shapeCast S1x64 (A6 m c) shapeCasts_S64_S1x64 := by
  show StableHlo.after hostOps1 (W2 m ρ c) (Proc.devRef .tc main_v44) = _
  after_results_simp
  rw [W2_arg6 m ρ c]
  rfl

/-! ## The second dense region -/

/-- The second layer's result array is the reference's second layer. -/
theorem h2_eq : (W4 m ρ c (Proc.devRef .tc main_v45) : S100000x64.Idx → EReal)
    = Cert.ReferenceIdeal.Read.val_main_v69 (F := Ideal) (A0 m c) (A1 m c) (A2 m c) (A3 m c) (A4 m c) (A5 m c) (A6 m c) (A7 m c) (A8 m c) := by
  refine (W4_arr m ρ c 6).trans ((final1 (V3 m ρ) c).trans ?_)
  unfold G1
  rw [show (V3 m ρ c main_v41 : S100000x64.Idx → EReal) = _ from k3_v41 m ρ c, show (V3 m ρ c main_v31 : S100000x64.Idx → EReal) = _ from k3_v31 m ρ c,
    show (V3 m ρ c main_v17 : S100000x1.Idx → EReal) = _ from k3_v17 m ρ c, show (V3 m ρ c main_v42 : S64x64.Idx → EReal) = _ from k3_v42 m ρ c,
    show (V3 m ρ c main_v43 : S64x64.Idx → EReal) = _ from k3_v43 m ρ c, show (V3 m ρ c main_v44 : S1x64.Idx → EReal) = _ from k3_v44 m ρ c]
  refine (Cert.ReferenceIdeal.RefLayers.refLayer_plain _ _ _ _ _ _ _ _).symm.trans ?_
  rfl

/-! ## The third host stretch -/

/-- The edge endpoints, when the second region is left. -/
theorem W4_v8 : (W4 m ρ c (Proc.devRef .tc main_v8) : S1600000.Idx → BitVec 32) = Cert.ReferenceIdeal.Read.val_main_v8 (F := Ideal) (A8 m c) :=
  (W4_of_ne m ρ c main_v8 (by decide)).trans ((W3_keep m ρ c main_v8 (by decide)).trans (W2_v8 m ρ c))
theorem W4_v10 : (W4 m ρ c (Proc.devRef .tc main_v10) : S1600000.Idx → BitVec 32) = Cert.ReferenceIdeal.Read.val_main_v10 (F := Ideal) (A8 m c) :=
  (W4_of_ne m ρ c main_v10 (by decide)).trans ((W3_keep m ρ c main_v10 (by decide)).trans (W2_v10 m ρ c))

set_option maxHeartbeats 4000000 in
/-- The source endpoints' rows of the second layer, in slabs of 128 edges. -/
theorem k5_v53 : (W5 m ρ c (Proc.devRef .tc main_v53) : S12500x128x64.Idx → EReal)
    = shapeCast S12500x128x64 (Cert.ReferenceIdeal.Read.val_main_v78 (F := Ideal) (A0 m c) (A1 m c) (A2 m c) (A3 m c) (A4 m c) (A5 m c) (A6 m c) (A7 m c) (A8 m c)) shapeCasts_S1600000x64_S12500x128x64 := by
  show StableHlo.after hostOps2 (W4 m ρ c) (Proc.devRef .tc main_v53) = _
  after_results_simp
  rw [W4_v8 m ρ c, h2_eq m ρ c]
  rfl
set_option maxHeartbeats 4000000 in
/-- The destination endpoints' rows of the second layer, in slabs of 128 edges. -/
theorem k5_v61 : (W5 m ρ c (Proc.devRef .tc main_v61) : S12500x128x64.Idx → EReal)
    = shapeCast S12500x128x64 (Cert.ReferenceIdeal.Read.val_main_v87 (F := Ideal) (A0 m c) (A1 m c) (A2 m c) (A3 m c) (A4 m c) (A5 m c) (A6 m c) (A7 m c) (A8 m c)) shapeCasts_S1600000x64_S12500x128x64 := by
  show StableHlo.after hostOps2 (W4 m ρ c) (Proc.devRef .tc main_v61) = _
  after_results_simp
  rw [W4_v10 m ρ c, h2_eq m ρ c]
  rfl

/-! ## The classifier region and the result -/

/-- The classifier region's result array: the inner products of the reference's two endpoint-row arrays, in slabs. -/
theorem h3_eq : (W6 m ρ c (Proc.devRef .tc main_v62) : S12500x128.Idx → EReal)
    = Cert.GraphSpec.edge
        (shapeCast S12500x128x64 (Cert.ReferenceIdeal.Read.val_main_v78 (F := Ideal) (A0 m c) (A1 m c) (A2 m c) (A3 m c) (A4 m c) (A5 m c) (A6 m c) (A7 m c) (A8 m c)) shapeCasts_S1600000x64_S12500x128x64)
        (shapeCast S12500x128x64 (Cert.ReferenceIdeal.Read.val_main_v87 (F := Ideal) (A0 m c) (A1 m c) (A2 m c) (A3 m c) (A4 m c) (A5 m c) (A6 m c) (A7 m c) (A8 m c)) shapeCasts_S1600000x64_S12500x128x64) := by
  refine (W6_arr m ρ c 2).trans ((final2 (V5 m ρ) c).trans ?_)
  unfold G2
  rw [show (V5 m ρ c main_v53 : S12500x128x64.Idx → EReal) = _ from k5_v53 m ρ c, show (V5 m ρ c main_v61 : S12500x128x64.Idx → EReal) = _ from k5_v61 m ρ c]

set_option maxHeartbeats 4000000 in
/-- THE VALUE: the kernel's result array is the reference's, as a function of the launch contents of the arguments. -/
theorem kernel_value : (W7 m ρ c (Proc.devRef .tc main_v63) : S1600000.Idx → EReal)
    = Cert.ReferenceIdeal.Read.val_main_v89 (F := Ideal) (A0 m c) (A1 m c) (A2 m c) (A3 m c) (A4 m c) (A5 m c) (A6 m c) (A7 m c) (A8 m c) := by
  show StableHlo.after hostOps3 (W6 m ρ c) (Proc.devRef .tc main_v63) = _
  after_results_simp
  rw [h3_eq m ρ c]
  refine (Cert.ReferenceIdeal.RefLayers.refEdge _ _ _ _).symm.trans ?_
  rfl

end Cert.KernelIdeal.Bridge

end
-- ==== Proof.lean ====
/-
  A two-layer graph network with mean aggregation and an inner-product edge classifier, as three pipelined kernels
  among host gathers and scatter-adds, against the plain reference.

  At the exact values the two programs compute one function of the arguments. The embedding lookup, the degree
  counts, the neighbour sums and the transposed weights are the same host operations on both sides. Each dense layer
  is  (aggregate / degree) · Wlᵀ + features · Wrᵀ + bias  (the first one clamped below at zero): the kernel forms it
  4000 rows at a time with two matrix products into zero, the reference over whole arrays; entry by entry both are
  Σ_k (A i k / D i) · Wl j k + Σ_k X i k · Wr j k + b j, a change of float format being the identity. The classifier
  is, per edge, the sum of the 64 products of its endpoint rows: the kernel takes the edges in slabs of 128, 128 slabs
  to a grid point, the last point's block cut at the arrays' end; the reference sums each row of the product array.
  No law of arithmetic is used beyond the definitions of the operations, so no entry needs to be finite.

  The frames: the idealized kernel's is its run read at the arguments; the reference's is its run read back; the
  word-level kernel's is proved on relational proof data, since at word level the cut block's lane sums are not
  determined by the rows inside the array alone. The idealization rewrote nothing.
-/
import proofs.«101352_j60773787238404_2_alg».proof.Defs
import proofs.«101352_j60773787238404_2_alg».proof.Proof.Gen.Kernel
import proofs.«101352_j60773787238404_2_alg».proof.Proof.Gen.KernelIdeal
import proofs.«101352_j60773787238404_2_alg».proof.Proof.Gen.ReferenceIdeal
import proofs.«101352_j60773787238404_2_alg».proof.Proof.Gen.Pre_finite_inputs
import proofs.«101352_j60773787238404_2_alg».proof.Proof.Gen.ReferenceIdeal.Run
import proofs.«101352_j60773787238404_2_alg».proof.Proof.Gen.ReferenceIdeal.Read
import proofs.«101352_j60773787238404_2_alg».proof.Proof.BitsFrame
import proofs.«101352_j60773787238404_2_alg».proof.Proof.IdealBridge2
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_p : Cert.frame_Kernel := fun m ρ _ => Cert.Kernel.BitsFrame.frame m ρ

/-- The idealized kernel's run, read at the arguments. -/
theorem frame_pi : Cert.frame_KernelIdeal := fun m ρ _ =>
  (θ_run Cert.KernelIdeal.defs _ _).mono (fun _ h c => (h c).2) (Cert.KernelIdeal.Run.run_result m ρ)

/-- The reference's run, read at the arguments. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same result array: the kernel's is the reference's last stage of the
    kernel's arguments, and the two memories agree on the arguments. -/
theorem algebraic : Cert.algebraic_KernelIdeal_ReferenceIdeal := by
  intro m ρ m' ρ' _ hagree
  refine ⟨fun c => Cert.KernelIdeal.Run.W7 m ρ c (Proc.devRef .tc Cert.KernelIdeal.main_v63), Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  exact (Cert.KernelIdeal.Bridge.kernel_value m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
